-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024x1024 : Shape := ⟨2, ![1024, 1024]⟩
abbrev S512x128 : Shape := ⟨2, ![512, 128]⟩
abbrev S256x128 : Shape := ⟨2, ![256, 128]⟩
abbrev S256x1 : Shape := ⟨2, ![256, 1]⟩
abbrev S8192x2 : Shape := ⟨2, ![8192, 2]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S512x128 : S_.BroadcastsInDim S512x128 (![] : Fin 0 → Fin S512x128.rank)
  reducesTo_S512x128_S_d0_1 : S512x128.ReducesTo [0, 1] S_
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg4 : FVec F S256x1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  main_v23

def fn {F : FTy → Type} [FloatOps F] (main_arg0 : FVec F S1024x512 .f32) (main_arg1 : FVec F S1024x1024 .f32) (main_arg2 : FVec F S512x128 .f32) (main_arg3 : FVec F S256x128 .f32) (main_arg4 : FVec F S256x1 .f32) (main_arg5 : IVec S8192x2 32) (main_arg6 : IVec S8192x2 32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S1024x512 : Shape := ⟨2, ![1024, 512]⟩
abbrev S1024x1024 : Shape := ⟨2, ![1024, 1024]⟩
abbrev S512x128 : Shape := ⟨2, ![512, 128]⟩
abbrev S256x128 : Shape := ⟨2, ![256, 128]⟩
abbrev S256x1 : Shape := ⟨2, ![256, 1]⟩
abbrev S8192x2 : Shape := ⟨2, ![8192, 2]⟩
abbrev S1024x128 : Shape := ⟨2, ![1024, 128]⟩
abbrev S128x512 : Shape := ⟨2, ![128, 512]⟩
abbrev S128x128 : Shape := ⟨2, ![128, 128]⟩
abbrev S1024x1 : Shape := ⟨2, ![1024, 1]⟩
abbrev S1x1024 : Shape := ⟨2, ![1, 1024]⟩
abbrev S128x1024 : Shape := ⟨2, ![128, 1024]⟩
abbrev S128x1 : Shape := ⟨2, ![128, 1]⟩
abbrev S1x128 : Shape := ⟨2, ![1, 128]⟩
abbrev S128 : Shape := ⟨1, ![128]⟩

abbrev nBuf : Space → Nat
  | .hbm => 13
  | .vmem => 26
  | .smem => 0
  | _ => 0

abbrev bufTy : (tb : Table) → Fin (tcTables nBuf tb) → BufTy
  | .hbm, ⟨0, _⟩ => ⟨S1024x512, .f32⟩
  | .hbm, ⟨1, _⟩ => ⟨S1024x1024, .f32⟩
  | .hbm, ⟨2, _⟩ => ⟨S512x128, .f32⟩
  | .hbm, ⟨3, _⟩ => ⟨S256x128, .f32⟩
  | .hbm, ⟨4, _⟩ => ⟨S256x1, .f32⟩
  | .hbm, ⟨5, _⟩ => ⟨S8192x2, .i32⟩
  | .hbm, ⟨6, _⟩ => ⟨S8192x2, .i32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x1, .f32⟩
  | .hbm, ⟨11, _⟩ => ⟨S1x1024, .f32⟩
  | .hbm, ⟨12, _⟩ => ⟨S1024x1024, .f32⟩
  | .local _ .vmem, ⟨0, _⟩ => ⟨S128x512, .f32⟩
  | .local _ .vmem, ⟨1, _⟩ => ⟨S128x512, .f32⟩
  | .local _ .vmem, ⟨2, _⟩ => ⟨S512x128, .f32⟩
  | .local _ .vmem, ⟨3, _⟩ => ⟨S128x128, .f32⟩
  | .local _ .vmem, ⟨4, _⟩ => ⟨S128x128, .f32⟩
  | .local _ .vmem, ⟨5, _⟩ => ⟨S128x1024, .f32⟩
  | .local _ .vmem, ⟨6, _⟩ => ⟨S128x1024, .f32⟩
  | .local _ .vmem, ⟨7, _⟩ => ⟨S1024x128, .f32⟩
  | .local _ .vmem, ⟨8, _⟩ => ⟨S256x128, .f32⟩
  | .local _ .vmem, ⟨9, _⟩ => ⟨S256x1, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x1, .f32⟩
  | .local _ .vmem, ⟨15, _⟩ => ⟨S128x1, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S128x128, .f32⟩
  | .local _ .vmem, ⟨20, _⟩ => ⟨S1024x128, .f32⟩
  | .local _ .vmem, ⟨21, _⟩ => ⟨S128x1, .f32⟩
  | .local _ .vmem, ⟨22, _⟩ => ⟨S128x1, .f32⟩
  | .local _ .vmem, ⟨23, _⟩ => ⟨S1x1024, .f32⟩
  | .local _ .vmem, ⟨24, _⟩ => ⟨S128x1024, .f32⟩
  | .local _ .vmem, ⟨25, _⟩ => ⟨S128x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S128x512_S128x512_0_0 : ∀ a, (![0, 0] : Fin 2 → Nat) a + S128x512.size a ≤ S128x512.size a
  h_S128x512 : 0 < S128x512.numel
  inb_S512x128_S512x128_0_0 : ∀ a, (![0, 0] : Fin 2 → Nat) a + S512x128.size a ≤ S512x128.size a
  h_S512x128 : 0 < S512x128.numel
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x1024_S128x1024_0_0 : ∀ a, (![0, 0] : Fin 2 → Nat) a + S128x1024.size a ≤ S128x1024.size a
  h_S128x1024 : 0 < S128x1024.numel
  inb_S256x128_S256x128_0_0 : ∀ a, (![0, 0] : Fin 2 → Nat) a + S256x128.size a ≤ S256x128.size a
  h_S256x128 : 0 < S256x128.numel
  slices_S256x128_o0_0_S128x128 : S256x128.Slices ![0, 0] S128x128
  slices_S256x128_o128_0_S128x128 : S256x128.Slices ![128, 0] S128x128
  inb_S256x1_S256x1_0_0 : ∀ a, (![0, 0] : Fin 2 → Nat) a + S256x1.size a ≤ S256x1.size a
  h_S256x1 : 0 < S256x1.numel
  slices_S256x1_o0_0_S128x1 : S256x1.Slices ![0, 0] S128x1
  shapeCasts_S128x1_S1x128 : S128x1.ShapeCasts S1x128
  slices_S256x1_o128_0_S128x1 : S256x1.Slices ![128, 0] S128x1
  broadcasts_S1x128_S128x128 : S1x128.Broadcasts S128x128
  reduces_S128x128_S128 : S128x128.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  transposes_S128x1_p1_0_S1x128 : S128x1.Transposes [1, 0] S1x128
  inb_S1x128_S1x128_0_0 : ∀ a, (![0, 0] : Fin 2 → Nat) a + S1x128.size a ≤ S1x128.size a
  h_S1x128 : 0 < S1x128.numel
  shapeCasts_S128x128_S128x128 : S128x128.ShapeCasts S128x128
  shapeCasts_S128x1_S128x1 : S128x1.ShapeCasts S128x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S128x1_S128x1024 : S128x1.Broadcasts S128x1024
  broadcasts_S1x1024_S128x1024 : S1x1024.Broadcasts S128x1024
  dot_S128x512_S512x128_S128x128_1_0_0_1_n_n_wf : DotDims.WF S128x512 S512x128 S128x128 [1] [0] [0] [1] [] []
  dot_S128x1024_S1024x128_S128x128_1_0_0_1_n_n_wf : DotDims.WF S128x1024 S1024x128 S128x128 [1] [0] [0] [1] [] []
  dot_S128x128_S128x128_S128x128_1_0_0_1_n_n_wf : DotDims.WF S128x128 S128x128 S128x128 [1] [0] [0] [1] [] []
  dot_S128x128_S1024x128_S128x1024_1_1_0_0_n_n_wf : DotDims.WF S128x128 S1024x128 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S1024x512.size a
  hwx0_0 : ∀ i : grid0.Coords, EltTy.bits .f32 = 32 ∨ (Rect.block (s := S1024x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x128.size a
  hwx0_2 : ∀ i : grid0.Coords, EltTy.bits .f32 = 32 ∨ (Rect.block (s := S1024x128) S128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S1024x1024.size a
  hwx1_0 : ∀ i : grid1.Coords, EltTy.bits .f32 = 32 ∨ (Rect.block (s := S1024x1024) S128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S1024x128.size a
  hwx1_4 : ∀ i : grid1.Coords, EltTy.bits .f32 = 32 ∨ (Rect.block (s := S1024x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S1024x128.size a
  hwx1_5 : ∀ i : grid1.Coords, EltTy.bits .f32 = 32 ∨ (Rect.block (s := S1024x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S1024x1.size a
  hwx1_6 : ∀ i : grid1.Coords, EltTy.bits .f32 = 32 ∨ (Rect.block (s := S1024x1) S128x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x1024.size a
  hwx1_7 : ∀ i : grid1.Coords, EltTy.bits .f32 = 32 ∨ (Rect.block (s := S1x1024) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x128.size a ≤ S1024x128.size a
  hwx2_0 : ∀ i : grid2.Coords, EltTy.bits .f32 = 32 ∨ (Rect.block (s := S1024x128) S128x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S1024x128.size a
  hwx2_1 : ∀ i : grid2.Coords, EltTy.bits .f32 = 32 ∨ (Rect.block (s := S1024x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S1024x1.size a
  hwx2_2 : ∀ i : grid2.Coords, EltTy.bits .f32 = 32 ∨ (Rect.block (s := S1024x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S128x1024.size a ≤ S1024x1024.size a
  hwx2_4 : ∀ i : grid2.Coords, EltTy.bits .f32 = 32 ∨ (Rect.block (s := S1024x1024) S128x1024.size (cc2_transform_4 i) (hinb2_4 i)).WholeWords (EltTy.packing .f32)

variable [Facts₀]

def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S1024x128_S128x1024_1_1_0_0_n_n : DotDims S128x128 S1024x128 S128x1024 where
  lhsContracting := [1]
  rhsContracting := [1]
  lhsNonContracting := [0]
  rhsNonContracting := [0]
  lhsBatch := []
  rhsBatch := []
  wf := dot_S128x128_S1024x128_S128x1024_1_1_0_0_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S128x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S128x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_2) S128x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1_3) S1x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v1_1) S128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S1024x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1_2) S128x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1_3) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S128x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1024x512 : Shape := ⟨2, ![1024, 512]⟩
abbrev S1024x1024 : Shape := ⟨2, ![1024, 1024]⟩
abbrev S512x128 : Shape := ⟨2, ![512, 128]⟩
abbrev S256x128 : Shape := ⟨2, ![256, 128]⟩
abbrev S256x1 : Shape := ⟨2, ![256, 1]⟩
abbrev S8192x2 : Shape := ⟨2, ![8192, 2]⟩
abbrev S1024x128 : Shape := ⟨2, ![1024, 128]⟩
abbrev S1024x1x128 : Shape := ⟨3, ![1024, 1, 128]⟩
abbrev S1024x1024x128 : Shape := ⟨3, ![1024, 1024, 128]⟩
abbrev S1x1024x128 : Shape := ⟨3, ![1, 1024, 128]⟩
abbrev S1024x1024x256 : Shape := ⟨3, ![1024, 1024, 256]⟩
abbrev S_ : Shape := ⟨0, ![]⟩
abbrev S1024x1024x1 : Shape := ⟨3, ![1024, 1024, 1]⟩

abbrev nBuf : Space → Nat
  | .hbm => 30
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x1024, .f32⟩
  | .hbm, ⟨2, _⟩ => ⟨S512x128, .f32⟩
  | .hbm, ⟨3, _⟩ => ⟨S256x128, .f32⟩
  | .hbm, ⟨4, _⟩ => ⟨S256x1, .f32⟩
  | .hbm, ⟨5, _⟩ => ⟨S8192x2, .i32⟩
  | .hbm, ⟨6, _⟩ => ⟨S8192x2, .i32⟩
  | .hbm, ⟨7, _⟩ => ⟨S1024x128, .f32⟩
  | .hbm, ⟨8, _⟩ => ⟨S1024x128, .f32⟩
  | .hbm, ⟨9, _⟩ => ⟨S1024x1x128, .f32⟩
  | .hbm, ⟨10, _⟩ => ⟨S1024x1024x128, .f32⟩
  | .hbm, ⟨11, _⟩ => ⟨S1x1024x128, .f32⟩
  | .hbm, ⟨12, _⟩ => ⟨S1024x1024x128, .f32⟩
  | .hbm, ⟨13, _⟩ => ⟨S1024x1024x256, .f32⟩
  | .hbm, ⟨14, _⟩ => ⟨S_, .f32⟩
  | .hbm, ⟨15, _⟩ => ⟨S1024x1024x256, .f32⟩
  | .hbm, ⟨16, _⟩ => ⟨S1024x1024x256, .f32⟩
  | .hbm, ⟨17, _⟩ => ⟨S1024x1024x128, .f32⟩
  | .hbm, ⟨18, _⟩ => ⟨S1024x1024x128, .f32⟩
  | .hbm, ⟨19, _⟩ => ⟨S1024x1024x256, .f32⟩
  | .hbm, ⟨20, _⟩ => ⟨S1024x1024x1, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S1024x128_S1024x1x128_0_2 : S1024x128.BroadcastsInDim S1024x1x128 (![0, 2] : Fin 2 → Fin S1024x1x128.rank)
  bcast_S1024x1x128_S1024x1024x128_0_1_2 : S1024x1x128.BroadcastsInDim S1024x1024x128 (![0, 1, 2] : Fin 3 → Fin S1024x1024x128.rank)
  bcast_S1024x128_S1x1024x128_1_2 : S1024x128.BroadcastsInDim S1x1024x128 (![1, 2] : Fin 2 → Fin S1x1024x128.rank)
  bcast_S1x1024x128_S1024x1024x128_0_1_2 : S1x1024x128.BroadcastsInDim S1024x1024x128 (![0, 1, 2] : Fin 3 → Fin S1024x1024x128.rank)
  concatenates_S1024x1024x128_S1024x1024x128_S1024x1024x256_d2 : Shape.Concatenates [S1024x1024x128, S1024x1024x128] S1024x1024x256 2
  bcast_S_S1024x1024x256 : S_.BroadcastsInDim S1024x1024x256 (![] : Fin 0 → Fin S1024x1024x256.rank)
  shapeCasts_S1024x1024x1_S1024x1024 : S1024x1024x1.ShapeCasts S1024x1024
  bcast_S_S1024x1024 : S_.BroadcastsInDim S1024x1024 (![] : Fin 0 → Fin S1024x1024.rank)
  dot_S1024x512_S512x128_S1024x128_1_0_0_1_n_n_wf : DotDims.WF S1024x512 S512x128 S1024x128 [1] [0] [0] [1] [] []
  dot_S1024x1024_S1024x128_S1024x128_1_0_0_1_n_n_wf : DotDims.WF S1024x1024 S1024x128 S1024x128 [1] [0] [0] [1] [] []
  dot_S1024x1024x256_S256x128_S1024x1024x128_2_0_01_1_n_n_wf : DotDims.WF S1024x1024x256 S256x128 S1024x1024x128 [2] [0] [0, 1] [1] [] []
  dot_S1024x1024x256_S256x1_S1024x1024x1_2_0_01_1_n_n_wf : DotDims.WF S1024x1024x256 S256x1 S1024x1024x1 [2] [0] [0, 1] [1] [] []

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x1024x256_S256x128_S1024x1024x128_2_0_01_1_n_n : DotDims S1024x1024x256 S256x128 S1024x1024x128 where
  lhsContracting := [2]
  rhsContracting := [0]
  lhsNonContracting := [0, 1]
  rhsNonContracting := [1]
  lhsBatch := []
  rhsBatch := []
  wf := dot_S1024x1024x256_S256x128_S1024x1024x128_2_0_01_1_n_n_wf
def dot_S1024x1024x256_S256x1_S1024x1024x1_2_0_01_1_n_n : DotDims S1024x1024x256 S256x1 S1024x1024x1 where
  lhsContracting := [2]
  rhsContracting := [0]
  lhsNonContracting := [0, 1]
  rhsNonContracting := [1]
  lhsBatch := []
  rhsBatch := []
  wf := dot_S1024x1024x256_S256x1_S1024x1024x1_2_0_01_1_n_n_wf

class Facts : Prop extends Facts₀ where

variable [Facts]
-- ==== Proof.KernelRun.lean ====
/-
  The idealized kernel's run with its RESULT named. @main is three kernel launches in a row with no host
  operation between them. The buffer contents at the boundaries form a chain: the launch memory, then after each
  launch the same contents with that launch's arrays replaced by what its write-backs leave. Every weakly fair
  execution ends with each unscoped buffer at the last link of that chain; read at the result buffer this says what
  the program returns, and read at an argument it is the launch memory again.
-/
import proofs.«139175_j24885040513650_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the contents the
    third launch's write-backs leave in it, and the seven arguments end as launched. -/
theorem run_result : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Run

end
-- ==== Proof.Spec.lean ====
/-
  What the three kernel launches compute, stated on arrays of extended reals, index by index.

  With `inputs` [1024,512], `weight` [512,128], `adj` [1024,1024], `weight_two` [256,128] and `weight_three` [256,1]:
    x  = inputs · weight                     [1024,128]
    z  = adj · x                             [1024,128]
    zw[i,k] = z[i,k] · weight_three[128+k]   [1024,128]
    a[i] = Σ_l (Σ_k max(z[i,k],0) · weight_two[k,l])     · weight_three[l]      [1024,1]
    b[j] = Σ_l (Σ_k max(z[j,k],0) · weight_two[128+k,l]) · weight_three[l]      [1,1024]
    out[i,j] = logistic ((Σ_k zw[i,k] · z[j,k] + a[i]) + b[j])                  [1024,1024]
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev Arr (r c : Nat) : Type := (⟨2, ![r, c]⟩ : Shape).Idx → EReal

/-- Row `128·t + p` of a 1024-row array, from the block number `t < 8` and the row `p` inside the block. -/
abbrev row (t : Nat) (ht : t < 8) (p : Fin 128) : Fin 1024 := ⟨t * 128 + p.val, by have := p.isLt; omega⟩

/-- Row `128 + k` of a 256-row array: the second half. -/
abbrev hi (k : Fin 128) : Fin 256 := ⟨128 + k.val, by have := k.isLt; omega⟩
/-- Row `k` of a 256-row array: the first half. -/
abbrev lo (k : Fin 128) : Fin 256 := ⟨k.val, by have := k.isLt; omega⟩

/-- One entry of `inputs · weight`. -/
def xAt (a : Arr 1024 512) (w : Arr 512 128) (p : Fin 1024) (q : Fin 128) : EReal :=
  ∑ k : Fin 512, a (ix2 p k) * w (ix2 k q)
def xOf (a : Arr 1024 512) (w : Arr 512 128) : Arr 1024 128 := fun i => xAt a w (i 0) (i 1)

/-- One entry of `adj · x`. -/
def zAt (adj : Arr 1024 1024) (x : Arr 1024 128) (p : Fin 1024) (q : Fin 128) : EReal :=
  ∑ k : Fin 1024, adj (ix2 p k) * x (ix2 k q)
def zOf (adj : Arr 1024 1024) (x : Arr 1024 128) : Arr 1024 128 := fun i => zAt adj x (i 0) (i 1)

/-- `z` scaled column by column by the second half of `weight_three`. -/
def zwAt (z : Arr 1024 128) (w3 : Arr 256 1) (p : Fin 1024) (q : Fin 128) : EReal :=
  z (ix2 p q) * w3 (ix2 (hi q) 0)
def zwOf (z : Arr 1024 128) (w3 : Arr 256 1) : Arr 1024 128 := fun i => zwAt z w3 (i 0) (i 1)

/-- The row score through the first half of `weight_two`. -/
def aAt (z : Arr 1024 128) (w2 : Arr 256 128) (w3 : Arr 256 1) (p : Fin 1024) : EReal :=
  ∑ l : Fin 128, (∑ k : Fin 128, max (z (ix2 p k)) 0 * w2 (ix2 (lo k) l)) * w3 (ix2 (lo l) 0)
def aOf (z : Arr 1024 128) (w2 : Arr 256 128) (w3 : Arr 256 1) : Arr 1024 1 := fun i => aAt z w2 w3 (i 0)

/-- The row score through the second half of `weight_two`. -/
def bAt (z : Arr 1024 128) (w2 : Arr 256 128) (w3 : Arr 256 1) (p : Fin 1024) : EReal :=
  ∑ l : Fin 128, (∑ k : Fin 128, max (z (ix2 p k)) 0 * w2 (ix2 (hi k) l)) * w3 (ix2 (lo l) 0)
def bOf (z : Arr 1024 128) (w2 : Arr 256 128) (w3 : Arr 256 1) : Arr 1 1024 := fun i => bAt z w2 w3 (i 1)

/-- The score of the pair (p, q) before the logistic function, in the order the third launch adds it up. -/
def scoreAt (zw z : Arr 1024 128) (a : Arr 1024 1) (b : Arr 1 1024) (p q : Fin 1024) : EReal :=
  ((∑ k : Fin 128, zw (ix2 p k) * z (ix2 q k)) + a (ix2 p 0)) + b (ix2 0 q)
def outOf (zw z : Arr 1024 128) (a : Arr 1024 1) (b : Arr 1 1024) : Arr 1024 1024 :=
  fun i => Ideal.logistic (scoreAt zw z a b (i 0) (i 1))

end Cert.Spec

end
-- ==== Proof.Products.lean ====
/-
  The four matrix products of the kernel bodies, each read at one entry of its result. At the extended reals a
  product into a zero accumulator is the plain sum, over the contracted position, of the products of the operands'
  entries: no rounding and no order is left in it.
-/
import proofs.«139175_j24885040513650_2_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.TcCoe Idealize.SL.Sem
open Idealize.ShloMosaic.ValueIdx

/-! ### rows_weight: a 128x512 block times a 512x128 block -/

theorem rows_weight_lhs_row (i : S128x128.Idx) (r : dot_S128x512_S512x128_S128x128_1_0_0_1_n_n.contr.Idx) : (dot_S128x512_S512x128_S128x128_1_0_0_1_n_n.lhsIdx i r 0).val = (i 0).val := by
  unfold DotDims.lhsIdx
  rw [dif_neg (show ¬(0 : Fin S128x512.rank) ∈ dot_S128x512_S512x128_S128x128_1_0_0_1_n_n.lhsBatch by decide), dif_pos (show (0 : Fin S128x512.rank) ∈ dot_S128x512_S512x128_S128x128_1_0_0_1_n_n.lhsNonContracting by decide)]
  rfl
theorem rows_weight_lhs_contr (i : S128x128.Idx) (r : dot_S128x512_S512x128_S128x128_1_0_0_1_n_n.contr.Idx) : (dot_S128x512_S512x128_S128x128_1_0_0_1_n_n.lhsIdx i r 1).val = (r ⟨0, by decide⟩).val :=
  dot_S128x512_S512x128_S128x128_1_0_0_1_n_n.lhsIdx_val_of_single rfl i r
theorem rows_weight_rhs_contr (i : S128x128.Idx) (r : dot_S128x512_S512x128_S128x128_1_0_0_1_n_n.contr.Idx) : (dot_S128x512_S512x128_S128x128_1_0_0_1_n_n.rhsIdx i r 0).val = (r ⟨0, by decide⟩).val :=
  dot_S128x512_S512x128_S128x128_1_0_0_1_n_n.rhsIdx_val_of_single rfl i r
theorem rows_weight_rhs_col (i : S128x128.Idx) (r : dot_S128x512_S512x128_S128x128_1_0_0_1_n_n.contr.Idx) : (dot_S128x512_S512x128_S128x128_1_0_0_1_n_n.rhsIdx i r 1).val = (i 1).val := by
  unfold DotDims.rhsIdx
  rw [dif_neg (show ¬(1 : Fin S512x128.rank) ∈ dot_S128x512_S512x128_S128x128_1_0_0_1_n_n.rhsBatch by decide), dif_pos (show (1 : Fin S512x128.rank) ∈ dot_S128x512_S512x128_S128x128_1_0_0_1_n_n.rhsNonContracting by decide)]
  rfl

/-- The product into a zero accumulator, read at (p, q): the sum over the 512 contracted positions. -/
theorem rows_weight_apply (x0 : FVec Ideal S128x512 .f32) (x1 : FVec Ideal S512x128 .f32) (p : Fin 128) (q : Fin 128) :
    matmul dot_S128x512_S512x128_S128x128_1_0_0_1_n_n none x0 x1 (constant S128x128 .f32 0x00000000#32) (ix2 p q) = ∑ k : Fin 512, x0 (ix2 p k) * x1 (ix2 k q) := by
  refine (Ideal.matmul_constant_zero_apply dot_S128x512_S512x128_S128x128_1_0_0_1_n_n none x0 x1 (ix2 p q)).trans ?_
  rw [← Equiv.sum_comp (ValueIdx.contrEquiv1 dot_S128x512_S512x128_S128x128_1_0_0_1_n_n 512 rfl rfl).symm]
  refine Finset.sum_congr rfl fun k _ => ?_
  have hk := ValueIdx.contrEquiv1_symm_val dot_S128x512_S512x128_S128x128_1_0_0_1_n_n 512 rfl rfl k
  have el : dot_S128x512_S512x128_S128x128_1_0_0_1_n_n.lhsIdx (ix2 p q) ((ValueIdx.contrEquiv1 dot_S128x512_S512x128_S128x128_1_0_0_1_n_n 512 rfl rfl).symm k) = ix2 p k := funext fun a => Fin.ext (by
    match a with
    | ⟨0, _⟩ => exact rows_weight_lhs_row _ _
    | ⟨1, _⟩ => exact (rows_weight_lhs_contr _ _).trans hk)
  have er : dot_S128x512_S512x128_S128x128_1_0_0_1_n_n.rhsIdx (ix2 p q) ((ValueIdx.contrEquiv1 dot_S128x512_S512x128_S128x128_1_0_0_1_n_n 512 rfl rfl).symm k) = ix2 k q := funext fun a => Fin.ext (by
    match a with
    | ⟨0, _⟩ => exact (rows_weight_rhs_contr _ _).trans hk
    | ⟨1, _⟩ => exact rows_weight_rhs_col _ _)
  rw [el, er]

/-! ### adj_x: a 128x1024 block times a 1024x128 block -/

theorem adj_x_lhs_row (i : S128x128.Idx) (r : dot_S128x1024_S1024x128_S128x128_1_0_0_1_n_n.contr.Idx) : (dot_S128x1024_S1024x128_S128x128_1_0_0_1_n_n.lhsIdx i r 0).val = (i 0).val := by
  unfold DotDims.lhsIdx
  rw [dif_neg (show ¬(0 : Fin S128x1024.rank) ∈ dot_S128x1024_S1024x128_S128x128_1_0_0_1_n_n.lhsBatch by decide), dif_pos (show (0 : Fin S128x1024.rank) ∈ dot_S128x1024_S1024x128_S128x128_1_0_0_1_n_n.lhsNonContracting by decide)]
  rfl
theorem adj_x_lhs_contr (i : S128x128.Idx) (r : dot_S128x1024_S1024x128_S128x128_1_0_0_1_n_n.contr.Idx) : (dot_S128x1024_S1024x128_S128x128_1_0_0_1_n_n.lhsIdx i r 1).val = (r ⟨0, by decide⟩).val :=
  dot_S128x1024_S1024x128_S128x128_1_0_0_1_n_n.lhsIdx_val_of_single rfl i r
theorem adj_x_rhs_contr (i : S128x128.Idx) (r : dot_S128x1024_S1024x128_S128x128_1_0_0_1_n_n.contr.Idx) : (dot_S128x1024_S1024x128_S128x128_1_0_0_1_n_n.rhsIdx i r 0).val = (r ⟨0, by decide⟩).val :=
  dot_S128x1024_S1024x128_S128x128_1_0_0_1_n_n.rhsIdx_val_of_single rfl i r
theorem adj_x_rhs_col (i : S128x128.Idx) (r : dot_S128x1024_S1024x128_S128x128_1_0_0_1_n_n.contr.Idx) : (dot_S128x1024_S1024x128_S128x128_1_0_0_1_n_n.rhsIdx i r 1).val = (i 1).val := by
  unfold DotDims.rhsIdx
  rw [dif_neg (show ¬(1 : Fin S1024x128.rank) ∈ dot_S128x1024_S1024x128_S128x128_1_0_0_1_n_n.rhsBatch by decide), dif_pos (show (1 : Fin S1024x128.rank) ∈ dot_S128x1024_S1024x128_S128x128_1_0_0_1_n_n.rhsNonContracting by decide)]
  rfl

/-- The product into a zero accumulator, read at (p, q): the sum over the 1024 contracted positions. -/
theorem adj_x_apply (x0 : FVec Ideal S128x1024 .f32) (x1 : FVec Ideal S1024x128 .f32) (p : Fin 128) (q : Fin 128) :
    matmul dot_S128x1024_S1024x128_S128x128_1_0_0_1_n_n none x0 x1 (constant S128x128 .f32 0x00000000#32) (ix2 p q) = ∑ k : Fin 1024, x0 (ix2 p k) * x1 (ix2 k q) := by
  refine (Ideal.matmul_constant_zero_apply dot_S128x1024_S1024x128_S128x128_1_0_0_1_n_n none x0 x1 (ix2 p q)).trans ?_
  rw [← Equiv.sum_comp (ValueIdx.contrEquiv1 dot_S128x1024_S1024x128_S128x128_1_0_0_1_n_n 1024 rfl rfl).symm]
  refine Finset.sum_congr rfl fun k _ => ?_
  have hk := ValueIdx.contrEquiv1_symm_val dot_S128x1024_S1024x128_S128x128_1_0_0_1_n_n 1024 rfl rfl k
  have el : dot_S128x1024_S1024x128_S128x128_1_0_0_1_n_n.lhsIdx (ix2 p q) ((ValueIdx.contrEquiv1 dot_S128x1024_S1024x128_S128x128_1_0_0_1_n_n 1024 rfl rfl).symm k) = ix2 p k := funext fun a => Fin.ext (by
    match a with
    | ⟨0, _⟩ => exact adj_x_lhs_row _ _
    | ⟨1, _⟩ => exact (adj_x_lhs_contr _ _).trans hk)
  have er : dot_S128x1024_S1024x128_S128x128_1_0_0_1_n_n.rhsIdx (ix2 p q) ((ValueIdx.contrEquiv1 dot_S128x1024_S1024x128_S128x128_1_0_0_1_n_n 1024 rfl rfl).symm k) = ix2 k q := funext fun a => Fin.ext (by
    match a with
    | ⟨0, _⟩ => exact (adj_x_rhs_contr _ _).trans hk
    | ⟨1, _⟩ => exact adj_x_rhs_col _ _)
  rw [el, er]

/-! ### square: a 128x128 block times a 128x128 block -/

theorem square_lhs_row (i : S128x128.Idx) (r : dot_S128x128_S128x128_S128x128_1_0_0_1_n_n.contr.Idx) : (dot_S128x128_S128x128_S128x128_1_0_0_1_n_n.lhsIdx i r 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem square_lhs_contr (i : S128x128.Idx) (r : dot_S128x128_S128x128_S128x128_1_0_0_1_n_n.contr.Idx) : (dot_S128x128_S128x128_S128x128_1_0_0_1_n_n.lhsIdx i r 1).val = (r ⟨0, by decide⟩).val :=
  dot_S128x128_S128x128_S128x128_1_0_0_1_n_n.lhsIdx_val_of_single rfl i r
theorem square_rhs_contr (i : S128x128.Idx) (r : dot_S128x128_S128x128_S128x128_1_0_0_1_n_n.contr.Idx) : (dot_S128x128_S128x128_S128x128_1_0_0_1_n_n.rhsIdx i r 0).val = (r ⟨0, by decide⟩).val :=
  dot_S128x128_S128x128_S128x128_1_0_0_1_n_n.rhsIdx_val_of_single rfl i r
theorem square_rhs_col (i : S128x128.Idx) (r : dot_S128x128_S128x128_S128x128_1_0_0_1_n_n.contr.Idx) : (dot_S128x128_S128x128_S128x128_1_0_0_1_n_n.rhsIdx i r 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- The product into a zero accumulator, read at (p, q): the sum over the 128 contracted positions. -/
theorem square_apply (x0 : FVec Ideal S128x128 .f32) (x1 : FVec Ideal S128x128 .f32) (p : Fin 128) (q : Fin 128) :
    matmul dot_S128x128_S128x128_S128x128_1_0_0_1_n_n none x0 x1 (constant S128x128 .f32 0x00000000#32) (ix2 p q) = ∑ k : Fin 128, x0 (ix2 p k) * x1 (ix2 k q) := by
  refine (Ideal.matmul_constant_zero_apply dot_S128x128_S128x128_S128x128_1_0_0_1_n_n none x0 x1 (ix2 p q)).trans ?_
  rw [← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 p q) ((ValueIdx.contrEquiv1 dot_S128x128_S128x128_S128x128_1_0_0_1_n_n 128 rfl rfl).symm k) = ix2 p k := funext fun a => Fin.ext (by
    match a with
    | ⟨0, _⟩ => exact square_lhs_row _ _
    | ⟨1, _⟩ => exact (square_lhs_contr _ _).trans hk)
  have er : dot_S128x128_S128x128_S128x128_1_0_0_1_n_n.rhsIdx (ix2 p q) ((ValueIdx.contrEquiv1 dot_S128x128_S128x128_S128x128_1_0_0_1_n_n 128 rfl rfl).symm k) = ix2 k q := funext fun a => Fin.ext (by
    match a with
    | ⟨0, _⟩ => exact (square_rhs_contr _ _).trans hk
    | ⟨1, _⟩ => exact square_rhs_col _ _)
  rw [el, er]

/-! ### cross: a 128x128 block times a 1024x128 block, contracting the second axis of both -/

theorem cross_lhs_row (i : S128x1024.Idx) (r : dot_S128x128_S1024x128_S128x1024_1_1_0_0_n_n.contr.Idx) : (dot_S128x128_S1024x128_S128x1024_1_1_0_0_n_n.lhsIdx i r 0).val = (i 0).val := by
  unfold DotDims.lhsIdx
  rw [dif_neg (show ¬(0 : Fin S128x128.rank) ∈ dot_S128x128_S1024x128_S128x1024_1_1_0_0_n_n.lhsBatch by decide), dif_pos (show (0 : Fin S128x128.rank) ∈ dot_S128x128_S1024x128_S128x1024_1_1_0_0_n_n.lhsNonContracting by decide)]
  rfl
theorem cross_lhs_contr (i : S128x1024.Idx) (r : dot_S128x128_S1024x128_S128x1024_1_1_0_0_n_n.contr.Idx) : (dot_S128x128_S1024x128_S128x1024_1_1_0_0_n_n.lhsIdx i r 1).val = (r ⟨0, by decide⟩).val :=
  dot_S128x128_S1024x128_S128x1024_1_1_0_0_n_n.lhsIdx_val_of_single rfl i r
theorem cross_rhs_contr (i : S128x1024.Idx) (r : dot_S128x128_S1024x128_S128x1024_1_1_0_0_n_n.contr.Idx) : (dot_S128x128_S1024x128_S128x1024_1_1_0_0_n_n.rhsIdx i r 1).val = (r ⟨0, by decide⟩).val :=
  dot_S128x128_S1024x128_S128x1024_1_1_0_0_n_n.rhsIdx_val_of_single rfl i r
theorem cross_rhs_col (i : S128x1024.Idx) (r : dot_S128x128_S1024x128_S128x1024_1_1_0_0_n_n.contr.Idx) : (dot_S128x128_S1024x128_S128x1024_1_1_0_0_n_n.rhsIdx i r 0).val = (i 1).val := by
  unfold DotDims.rhsIdx
  rw [dif_neg (show ¬(0 : Fin S1024x128.rank) ∈ dot_S128x128_S1024x128_S128x1024_1_1_0_0_n_n.rhsBatch by decide), dif_pos (show (0 : Fin S1024x128.rank) ∈ dot_S128x128_S1024x128_S128x1024_1_1_0_0_n_n.rhsNonContracting by decide)]
  rfl

/-- The product into a zero accumulator, read at (p, q): the sum over the 128 contracted positions. -/
theorem cross_apply (x0 : FVec Ideal S128x128 .f32) (x1 : FVec Ideal S1024x128 .f32) (p : Fin 128) (q : Fin 1024) :
    matmul dot_S128x128_S1024x128_S128x1024_1_1_0_0_n_n none x0 x1 (constant S128x1024 .f32 0x00000000#32) (ix2 p q) = ∑ k : Fin 128, x0 (ix2 p k) * x1 (ix2 q k) := by
  refine (Ideal.matmul_constant_zero_apply dot_S128x128_S1024x128_S128x1024_1_1_0_0_n_n none x0 x1 (ix2 p q)).trans ?_
  rw [← Equiv.sum_comp (ValueIdx.contrEquiv1 dot_S128x128_S1024x128_S128x1024_1_1_0_0_n_n 128 rfl rfl).symm]
  refine Finset.sum_congr rfl fun k _ => ?_
  have hk := ValueIdx.contrEquiv1_symm_val dot_S128x128_S1024x128_S128x1024_1_1_0_0_n_n 128 rfl rfl k
  have el : dot_S128x128_S1024x128_S128x1024_1_1_0_0_n_n.lhsIdx (ix2 p q) ((ValueIdx.contrEquiv1 dot_S128x128_S1024x128_S128x1024_1_1_0_0_n_n 128 rfl rfl).symm k) = ix2 p k := funext fun a => Fin.ext (by
    match a with
    | ⟨0, _⟩ => exact cross_lhs_row _ _
    | ⟨1, _⟩ => exact (cross_lhs_contr _ _).trans hk)
  have er : dot_S128x128_S1024x128_S128x1024_1_1_0_0_n_n.rhsIdx (ix2 p q) ((ValueIdx.contrEquiv1 dot_S128x128_S1024x128_S128x1024_1_1_0_0_n_n 128 rfl rfl).symm k) = ix2 q k := funext fun a => Fin.ext (by
    match a with
    | ⟨1, _⟩ => exact (cross_rhs_contr _ _).trans hk
    | ⟨0, _⟩ => exact cross_rhs_col _ _)
  rw [el, er]

end Cert.KernelIdeal.Products

end
-- ==== Proof.First.lean ====
/-
  The first launch: each grid point `t` multiplies rows `128t … 128t+127` of `inputs` by the whole of `weight` and
  writes the product back as the same rows of the result. The eight row blocks tile the result, so after the launch
  the result array is `inputs · weight`, whatever it held before.
-/
import proofs.«139175_j24885040513650_2_alg».proof.Proof.Gen.KernelIdeal.Frame
import proofs.«139175_j24885040513650_2_alg».proof.Proof.Spec
import proofs.«139175_j24885040513650_2_alg».proof.Proof.Products
import Idealize.ShloMosaic.Lib.Pipeline.Value
import Idealize.ShloMosaic.Lib.ValueIdx
import Idealize.ShloMosaic.PureOps.Ideal.Laws

noncomputable section

namespace Cert.KernelIdeal.First

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem off_zero : (![0, 0] : Fin 2 → Nat) = fun _ => 0 := funext fun a => by fin_cases a <;> rfl

/-- The block's product at (p, q) is the sum over the 512 contracted positions. -/
theorem prod_apply (x0 : Vec Ideal S128x512 .f32) (x1 : Vec Ideal S512x128 .f32) (p q : Fin 128) :
    (k0_pay1 (F := Ideal) x0 x1 (ix2 p q) : EReal) = ∑ k : Fin 512, x0 (ix2 p k) * x1 (ix2 k q) := by
  unfold k0_pay1
  exact Products.rows_weight_apply x0 x1 p q

/-- Where each window's block sits at grid point `t`: the row block `t` of `inputs` and of the result, all of `weight`. -/
theorem block_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_eight (t : Fin cfg0.N) : t.val < 8 := by
  have h := t.isLt
  have hN : cfg0.N = 8 := N_0
  omega

/-- The block of `inputs` at point `t` is rows `128t …` of the array. -/
theorem in_rows (c : Dev nD) (t : Fin cfg0.N) (ht : t.val < 8) (p : Fin 128) (k : Fin 512) :
    (iblk0 V c 0 t (ix2 p k) : EReal) = (V c main_arg0 : Spec.Arr 1024 512) (ix2 (Spec.row t.val ht p) k) := by
  obtain ⟨e0, e1, e2, e3, e4, e5⟩ := block_at t
  show (V c main_arg0 : Spec.Arr 1024 512) (((cfg0.win 0).blk t).view.emb (ix2 p k)) = _
  refine congrArg _ (funext fun a => Fin.ext ?_)
  match a with
  | ⟨0, _⟩ => show win0_0.index t (0 : Fin 2) * 128 + 1 * p.val = t.val * 128 + p.val; omega
  | ⟨1, _⟩ => show win0_0.index t (1 : Fin 2) * 512 + 1 * k.val = k.val; omega

/-- The block of `weight` at every point is the whole array. -/
theorem in_weight (c : Dev nD) (t : Fin cfg0.N) (k : Fin 512) (q : Fin 128) :
    (iblk0 V c 1 t (ix2 k q) : EReal) = (V c main_arg2 : Spec.Arr 512 128) (ix2 k q) := by
  obtain ⟨e0, e1, e2, e3, e4, e5⟩ := block_at t
  show (V c main_arg2 : Spec.Arr 512 128) (((cfg0.win 1).blk t).view.emb (ix2 k q)) = _
  refine congrArg _ (funext fun a => Fin.ext ?_)
  match a with
  | ⟨0, _⟩ => show win0_1.index t (0 : Fin 2) * 512 + 1 * k.val = k.val; omega
  | ⟨1, _⟩ => show win0_1.index t (1 : Fin 2) * 128 + 1 * q.val = q.val; omega

/-- Entry (p, q) of the result's block at point `t` is entry (128t + p, q) of the array. -/
theorem out_at (t : Fin cfg0.N) (ht : t.val < 8) (p q : Fin 128) :
    ((cfg0.win 2).blk t).view.emb (ix2 p q) = ix2 (Spec.row t.val ht p) q := by
  obtain ⟨e0, e1, e2, e3, e4, e5⟩ := block_at t
  funext a; apply Fin.ext
  match a with
  | ⟨0, _⟩ => show win0_2.index t (0 : Fin 2) * 128 + 1 * p.val = t.val * 128 + p.val; omega
  | ⟨1, _⟩ => show win0_2.index t (1 : Fin 2) * 128 + 1 * q.val = q.val; omega

/-- What point `t` writes back is block `t` of `inputs · weight`. -/
theorem flushed_eq (c : Dev nD) (t : Fin cfg0.N) :
    (dat0 V c).flushed 2 t = ((cfg0.win 2).blk t).view.read (Elt Ideal) (Spec.xOf (V c main_arg0) (V c main_arg2)) := by
  show (cfg0.win 2).cut (grid0.coords t) ((dat0 V c).after 2 t) = _
  rw [after0_2]
  unfold out0_2
  rw [View.canon_unit_zero off_zero]
  simp only [View.ld_unit_zero (S := S128x512) off_zero, View.ld_unit_zero (S := S512x128) off_zero]
  have ht := lt_eight t
  funext j
  obtain ⟨p, q, rfl⟩ : ∃ (p : Fin 128) (q : Fin 128), j = ix2 p q := ⟨j 0, j 1, eq_ix2 j⟩
  show (k0_pay1 (F := Ideal) (iblk0 V c 0 t) (iblk0 V c 1 t) (ix2 p q) : EReal) = Spec.xOf (V c main_arg0) (V c main_arg2) (((cfg0.win 2).blk t).view.emb (ix2 p q))
  rw [out_at t ht p q]
  refine (prod_apply (iblk0 V c 0 t) (iblk0 V c 1 t) p q).trans ?_
  show _ = Spec.xAt (V c main_arg0) (V c main_arg2) (Spec.row t.val ht p) q
  unfold Spec.xAt
  refine Finset.sum_congr rfl fun k _ => ?_
  rw [in_rows V c t ht p k, in_weight V c t k q]

/-- An index of the result is in point `t`'s block iff each coordinate is in the block's range. -/
theorem mem_blk (t : Fin cfg0.N) (i : S1024x128.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v0).slice (win0_2.rect t)).set ↔ _
  rw [View.set_slice_whole, Rect.mem_set_unit]
  exact Iff.rfl

/-- Every row of the result is in the block of the point numbered by the row divided by 128. -/
theorem cover (i : S1024x128.Idx) : ∃ t : Fin cfg0.N, (cfg0.win 2).flush t = true ∧ i ∈ ((cfg0.win 2).blk t).view.set := by
  have hi0 : (i 0).val < 1024 := (i 0).isLt
  have hi1 : (i 1).val < 128 := (i 1).isLt
  have hN : cfg0.N = 8 := N_0
  obtain ⟨t, htv⟩ : ∃ t : Fin cfg0.N, t.val = (i 0).val / 128 := ⟨⟨(i 0).val / 128, by omega⟩, rfl⟩
  obtain ⟨e0, e1, e2, e3, e4, e5⟩ := block_at t
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- After the first launch its result array is `inputs · weight` of the arrays the launch found. -/
theorem final (c : Dev nD) : (dat0 V c).arrAt 2 cfg0.N = Spec.xOf (V c main_arg0) (V c main_arg2) :=
  (dat0 V c).arrAt_eq_of_cover 2 _ (fun t _ => flushed_eq V c t) cover

end Cert.KernelIdeal.First

end
-- ==== Proof.LibLayout.lean ====
/-
  Column forms of three layout operations and a lane sum, read at an index written by coordinates. They complete
  the row forms the library already has, for bodies that keep a reduced axis as a unit axis
  (`sum(…, keepdims=True)`): a column [a,1] re-read as a row [1,a], a vector [a] re-read as a column [a,1], a
  column [a,1] repeated along a new second axis [a,b], and the sum along the second axis of an [a,b] array.
-/
import Idealize.ShloMosaic.Lib.Pipeline.Value
import Idealize.ShloMosaic.Lib.ValueIdx
import Idealize.ShloMosaic.PureOps.Ideal.Laws

namespace Cert.LibLayout

open Idealize.ShloMosaic Idealize.ShloMosaic.ValueIdx

variable {α : Type}

/-- An `[a, 1]` column cast to a `[1, a]` row reads, at `(u, i)`, the column at `(i, 0)`: both have row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals the sum of an `[a, b]` array along its second axis, read at row `p`, is the sum over the
    `b` entries of that row. -/
theorem lane_sum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  show ∑ l : Fin b, src (h.lift (ix1 p) l) = _
  refine Finset.sum_congr rfl fun l _ => congrArg src ?_
  funext d
  apply Fin.ext
  match d with
  | ⟨0, _⟩ => rfl
  | ⟨1, _⟩ => rfl

end Cert.LibLayout
-- ==== Proof.SecondBody.lean ====
/-
  The second launch's body on one block, read entry by entry. From a 128-row block `A` of `adj`, all of `x`,
  `weight_two` and `weight_three` it computes, for the block's rows p:
    z[p,q]  = Σ_k A[p,k] · x[k,q]
    zw[p,q] = z[p,q] · weight_three[128+q]
    a[p]    = Σ_l (Σ_k max(z[p,k],0) · weight_two[k,l])     · weight_three[l]
    b[p]    = Σ_l (Σ_k max(z[p,k],0) · weight_two[128+k,l]) · weight_three[l]      (stored as a row)
-/
import proofs.«139175_j24885040513650_2_alg».proof.Proof.Gen.KernelIdeal.Skeleton
import proofs.«139175_j24885040513650_2_alg».proof.Proof.Spec
import proofs.«139175_j24885040513650_2_alg».proof.Proof.Products
import proofs.«139175_j24885040513650_2_alg».proof.Proof.LibLayout
import Idealize.ShloMosaic.Lib.ValueLayout

noncomputable section

namespace Cert.KernelIdeal.SecondBody

open Cert.KernelIdeal Cert.KernelIdeal.Gen Idealize.ShloMosaic Idealize.ShloMosaic.TcCoe Idealize.SL.Sem
open Idealize.ShloMosaic.ValueIdx Cert.LibLayout

variable (v0 : Vec Ideal S1024x128 .f32) (v2 : Vec Ideal S128x1024 .f32) (v6 : Vec Ideal S256x128 .f32) (v11 : Vec Ideal S256x1 .f32)

/-- z at (p, q): the block's row p against column q of x. -/
theorem z_apply (p q : Fin 128) : (k1_pay1 (F := Ideal) v0 v2 (ix2 p q) : EReal) = ∑ k : Fin 1024, v2 (ix2 p k) * v0 (ix2 k q) := by
  unfold k1_pay1
  simp only [shapeCast_self]
  exact Products.adj_x_apply v2 v0 p q

/-- The positive part of z. -/
theorem relu_apply (p q : Fin 128) : (k1_pay2 (F := Ideal) v0 v2 (ix2 p q) : EReal) = max (k1_pay1 (F := Ideal) v0 v2 (ix2 p q)) 0 := by
  unfold k1_pay2
  show max (k1_pay1 (F := Ideal) v0 v2 (ix2 p q) : EReal) (Ideal.ofBits .f32 0x00000000#32) = _
  rw [Ideal.ofBits_zero_f32]

/-- The first half of weight_three as a row. -/
theorem w3_row_apply (u : Fin 1) (l : Fin 128) : (k1_pay3 (F := Ideal) v11 (ix2 u l) : EReal) = v11 (ix2 (Spec.lo l) (0 : Fin 1)) := by
  unfold k1_pay3
  refine (shapeCast_a1_1a_apply _ _ u l).trans ?_
  exact slice2_axis0_apply 0 v11 slices_S256x1_o0_0_S128x1 l (0 : Fin 1) (Spec.lo l) (by show l.val = 0 + l.val; omega)

/-- zw at (p, q). -/
theorem zw_apply (p q : Fin 128) :
    (k1_pay5 (F := Ideal) v0 v2 v11 (ix2 p q) : EReal) = k1_pay1 (F := Ideal) v0 v2 (ix2 p q) * v11 (ix2 (Spec.hi q) (0 : Fin 1)) := by
  unfold k1_pay5
  refine (mulf_apply _ _ (ix2 p q)).trans ?_
  congr 1
  refine (broadcastTo_1b_ab_apply _ _ p q).trans ?_
  refine (shapeCast_a1_1a_apply _ _ (0 : Fin 1) q).trans ?_
  exact slice2_axis0_apply 128 v11 slices_S256x1_o128_0_S128x1 q (0 : Fin 1) (Spec.hi q) rfl

/-- The row score through the first half of weight_two, kept as a column. -/
theorem a_apply (p : Fin 128) (u : Fin 1) :
    (k1_pay4 (F := Ideal) v0 v2 v6 v11 (ix2 p u) : EReal)
      = ∑ l : Fin 128, (∑ k : Fin 128, k1_pay2 (F := Ideal) v0 v2 (ix2 p k) * v6 (ix2 (Spec.lo k) l)) * v11 (ix2 (Spec.lo l) (0 : Fin 1)) := by
  unfold k1_pay4
  dsimp only
  refine (shapeCast_a_a1_apply _ _ p u).trans ?_
  refine (lane_sum_apply _ _ reduces_S128x128_S128 _ _ p).trans ?_
  refine Finset.sum_congr rfl fun l _ => ?_
  refine (mulf_apply _ _ (ix2 p l)).trans ?_
  congr 1
  · refine (Products.square_apply _ _ p l).trans ?_
    refine Finset.sum_congr rfl fun k _ => ?_
    congr 1
    exact slice2_axis0_apply 0 v6 slices_S256x128_o0_0_S128x128 k l (Spec.lo k) (by show k.val = 0 + k.val; omega)
  · refine (broadcastTo_1b_ab_apply _ _ p l).trans ?_
    exact w3_row_apply v11 (0 : Fin 1) l

/-- The row score through the second half of weight_two, transposed into a row. -/
theorem b_apply (u : Fin 1) (p : Fin 128) :
    (k1_pay6 (F := Ideal) v0 v2 v6 v11 (ix2 u p) : EReal)
      = ∑ l : Fin 128, (∑ k : Fin 128, k1_pay2 (F := Ideal) v0 v2 (ix2 p k) * v6 (ix2 (Spec.hi k) l)) * v11 (ix2 (Spec.lo l) (0 : Fin 1)) := by
  unfold k1_pay6
  dsimp only
  refine (transpose_ix2_apply _ _ u p).trans ?_
  refine (shapeCast_a_a1_apply _ _ p u).trans ?_
  refine (lane_sum_apply _ _ reduces_S128x128_S128 _ _ p).trans ?_
  refine Finset.sum_congr rfl fun l _ => ?_
  refine (mulf_apply _ _ (ix2 p l)).trans ?_
  congr 1
  · refine (Products.square_apply _ _ p l).trans ?_
    refine Finset.sum_congr rfl fun k _ => ?_
    congr 1
    exact slice2_axis0_apply 128 v6 slices_S256x128_o128_0_S128x128 k l (Spec.hi k) rfl
  · refine (broadcastTo_1b_ab_apply _ _ p l).trans ?_
    exact w3_row_apply v11 (0 : Fin 1) l

end Cert.KernelIdeal.SecondBody

end
-- ==== Proof.Second.lean ====
/-
  The second launch: each grid point `t` takes rows `128t … 128t+127` of `adj` and all of `x`, `weight_two` and
  `weight_three`, and writes back the same rows of `z`, of `zw` and of the column `a`, and columns `128t … 128t+127`
  of the row `b`. The eight blocks of each output tile it, so after the launch the four arrays are the functions
  `zOf`, `zwOf`, `aOf`, `bOf` of the arrays the launch found.
-/
import proofs.«139175_j24885040513650_2_alg».proof.Proof.Gen.KernelIdeal.Frame
import proofs.«139175_j24885040513650_2_alg».proof.Proof.Spec
import proofs.«139175_j24885040513650_2_alg».proof.Proof.SecondBody
import Idealize.ShloMosaic.Lib.Pipeline.Value
import Idealize.ShloMosaic.Lib.ValueIdx

noncomputable section

namespace Cert.KernelIdeal.Second

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem off_zero : (![0, 0] : Fin 2 → Nat) = fun _ => 0 := funext fun a => by fin_cases a <;> rfl

/-- Where the input windows' blocks sit at point `t`: row block `t` of `adj`; the other three arrays whole. -/
theorem block_in : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Where the output windows' blocks sit: row block `t` of `z`, `zw` and `a`; column block `t` of `b`. -/
theorem block_out : ∀ t : Fin cfg1.N, win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = 0 ∧ win1_7.index t (1 : Fin 2) = t.val :=
  (by decide +kernel : ∀ t : Fin grid1.N, _)

theorem lt_eight (t : Fin cfg1.N) : t.val < 8 := by
  have h := t.isLt
  have hN : cfg1.N = 8 := N_1
  omega

/-! ## The input blocks -/

theorem in_adj (c : Dev nD) (t : Fin cfg1.N) (ht : t.val < 8) (p : Fin 128) (k : Fin 1024) :
    (iblk1 V c 0 t (ix2 p k) : EReal) = (V c main_arg1 : Spec.Arr 1024 1024) (ix2 (Spec.row t.val ht p) k) := by
  obtain ⟨e0, e1, e2, e3, e4, e5, e6, e7⟩ := block_in t
  show (V c main_arg1 : Spec.Arr 1024 1024) (((cfg1.win 0).blk t).view.emb (ix2 p k)) = _
  refine congrArg _ (funext fun a => Fin.ext ?_)
  match a with
  | ⟨0, _⟩ => show win1_0.index t (0 : Fin 2) * 128 + 1 * p.val = t.val * 128 + p.val; omega
  | ⟨1, _⟩ => show win1_0.index t (1 : Fin 2) * 1024 + 1 * k.val = k.val; omega

theorem in_x (c : Dev nD) (t : Fin cfg1.N) (k : Fin 1024) (q : Fin 128) :
    (iblk1 V c 1 t (ix2 k q) : EReal) = (V c main_v0 : Spec.Arr 1024 128) (ix2 k q) := by
  obtain ⟨e0, e1, e2, e3, e4, e5, e6, e7⟩ := block_in t
  show (V c main_v0 : Spec.Arr 1024 128) (((cfg1.win 1).blk t).view.emb (ix2 k q)) = _
  refine congrArg _ (funext fun a => Fin.ext ?_)
  match a with
  | ⟨0, _⟩ => show win1_1.index t (0 : Fin 2) * 1024 + 1 * k.val = k.val; omega
  | ⟨1, _⟩ => show win1_1.index t (1 : Fin 2) * 128 + 1 * q.val = q.val; omega

theorem in_w2 (c : Dev nD) (t : Fin cfg1.N) (k : Fin 256) (l : Fin 128) :
    (iblk1 V c 2 t (ix2 k l) : EReal) = (V c main_arg3 : Spec.Arr 256 128) (ix2 k l) := by
  obtain ⟨e0, e1, e2, e3, e4, e5, e6, e7⟩ := block_in t
  show (V c main_arg3 : Spec.Arr 256 128) (((cfg1.win 2).blk t).view.emb (ix2 k l)) = _
  refine congrArg _ (funext fun a => Fin.ext ?_)
  match a with
  | ⟨0, _⟩ => show win1_2.index t (0 : Fin 2) * 256 + 1 * k.val = k.val; omega
  | ⟨1, _⟩ => show win1_2.index t (1 : Fin 2) * 128 + 1 * l.val = l.val; omega

theorem in_w3 (c : Dev nD) (t : Fin cfg1.N) (k : Fin 256) (u : Fin 1) :
    (iblk1 V c 3 t (ix2 k u) : EReal) = (V c main_arg4 : Spec.Arr 256 1) (ix2 k u) := by
  obtain ⟨e0, e1, e2, e3, e4, e5, e6, e7⟩ := block_in t
  show (V c main_arg4 : Spec.Arr 256 1) (((cfg1.win 3).blk t).view.emb (ix2 k u)) = _
  refine congrArg _ (funext fun a => Fin.ext ?_)
  match a with
  | ⟨0, _⟩ => show win1_3.index t (0 : Fin 2) * 256 + 1 * k.val = k.val; omega
  | ⟨1, _⟩ => show win1_3.index t (1 : Fin 2) * 1 + 1 * u.val = u.val; omega

/-! ## The body on the blocks at point `t`, in terms of the arrays -/

/-- z on block `t`. -/
theorem z_blk (c : Dev nD) (t : Fin cfg1.N) (ht : t.val < 8) (p q : Fin 128) :
    (k1_pay1 (F := Ideal) (iblk1 V c 1 t) (iblk1 V c 0 t) (ix2 p q) : EReal)
      = Spec.zAt (V c main_arg1) (V c main_v0) (Spec.row t.val ht p) q := by
  refine (SecondBody.z_apply (iblk1 V c 1 t) (iblk1 V c 0 t) p q).trans ?_
  unfold Spec.zAt
  refine Finset.sum_congr rfl fun k _ => ?_
  rw [in_adj V c t ht p k, in_x V c t k q]

/-- The positive part of z on block `t`. -/
theorem relu_blk (c : Dev nD) (t : Fin cfg1.N) (ht : t.val < 8) (p q : Fin 128) :
    (k1_pay2 (F := Ideal) (iblk1 V c 1 t) (iblk1 V c 0 t) (ix2 p q) : EReal)
      = max (Spec.zAt (V c main_arg1) (V c main_v0) (Spec.row t.val ht p) q) 0 := by
  refine (SecondBody.relu_apply (iblk1 V c 1 t) (iblk1 V c 0 t) p q).trans ?_
  rw [z_blk V c t ht p q]

/-! ## Window 4: z -/

theorem out_z_at (t : Fin cfg1.N) (ht : t.val < 8) (p q : Fin 128) :
    ((cfg1.win 4).blk t).view.emb (ix2 p q) = ix2 (Spec.row t.val ht p) q := by
  obtain ⟨e0, e1, e2, e3, e4, e5, e6, e7⟩ := block_out t
  funext a; apply Fin.ext
  match a with
  | ⟨0, _⟩ => show win1_4.index t (0 : Fin 2) * 128 + 1 * p.val = t.val * 128 + p.val; omega
  | ⟨1, _⟩ => show win1_4.index t (1 : Fin 2) * 128 + 1 * q.val = q.val; omega

theorem flushed_z (c : Dev nD) (t : Fin cfg1.N) :
    (dat1 V c).flushed 4 t = ((cfg1.win 4).blk t).view.read (Elt Ideal) (Spec.zOf (V c main_arg1) (V c main_v0)) := by
  show (cfg1.win 4).cut (grid1.coords t) ((dat1 V c).after 4 t) = _
  rw [after1_4]
  unfold out1_4
  rw [View.canon_unit_zero off_zero]
  simp only [View.ld_unit_zero (S := S1024x128) off_zero, View.ld_unit_zero (S := S128x1024) off_zero]
  have ht := lt_eight t
  funext j
  obtain ⟨p, q, rfl⟩ : ∃ (p : Fin 128) (q : Fin 128), j = ix2 p q := ⟨j 0, j 1, eq_ix2 j⟩
  show (k1_pay1 (F := Ideal) (iblk1 V c 1 t) (iblk1 V c 0 t) (ix2 p q) : EReal) = Spec.zOf (V c main_arg1) (V c main_v0) (((cfg1.win 4).blk t).view.emb (ix2 p q))
  rw [out_z_at t ht p q]
  exact z_blk V c t ht p q

theorem mem_blk_z (t : Fin cfg1.N) (i : S1024x128.Idx) :
    i ∈ ((cfg1.win 4).blk t).view.set ↔ ∀ a : Fin 2, win1_4.index t a * S128x128.size a ≤ (i a).val ∧ (i a).val < win1_4.index t a * S128x128.size a + S128x128.size a := by
  show i ∈ ((View.whole main_v1_0).slice (win1_4.rect t)).set ↔ _
  rw [View.set_slice_whole, Rect.mem_set_unit]
  exact Iff.rfl

theorem cover_z (i : S1024x128.Idx) : ∃ t : Fin cfg1.N, (cfg1.win 4).flush t = true ∧ i ∈ ((cfg1.win 4).blk t).view.set := by
  have hi0 : (i 0).val < 1024 := (i 0).isLt
  have hi1 : (i 1).val < 128 := (i 1).isLt
  have hN : cfg1.N = 8 := N_1
  obtain ⟨t, htv⟩ : ∃ t : Fin cfg1.N, t.val = (i 0).val / 128 := ⟨⟨(i 0).val / 128, by omega⟩, rfl⟩
  obtain ⟨e0, e1, e2, e3, e4, e5, e6, e7⟩ := block_out t
  refine ⟨t, flush1_4 t, ?_⟩
  rw [mem_blk_z]
  intro a
  match a with
  | ⟨0, _⟩ => show win1_4.index t (0 : Fin 2) * 128 ≤ (i 0).val ∧ (i 0).val < win1_4.index t (0 : Fin 2) * 128 + 128; omega
  | ⟨1, _⟩ => show win1_4.index t (1 : Fin 2) * 128 ≤ (i 1).val ∧ (i 1).val < win1_4.index t (1 : Fin 2) * 128 + 128; omega

/-- After the second launch its first result is `adj · x`. -/
theorem final_z (c : Dev nD) : (dat1 V c).arrAt 4 cfg1.N = Spec.zOf (V c main_arg1) (V c main_v0) :=
  (dat1 V c).arrAt_eq_of_cover 4 _ (fun t _ => flushed_z V c t) cover_z

/-! ## Window 5: zw -/

theorem out_zw_at (t : Fin cfg1.N) (ht : t.val < 8) (p q : Fin 128) :
    ((cfg1.win 5).blk t).view.emb (ix2 p q) = ix2 (Spec.row t.val ht p) q := by
  obtain ⟨e0, e1, e2, e3, e4, e5, e6, e7⟩ := block_out t
  funext a; apply Fin.ext
  match a with
  | ⟨0, _⟩ => show win1_5.index t (0 : Fin 2) * 128 + 1 * p.val = t.val * 128 + p.val; omega
  | ⟨1, _⟩ => show win1_5.index t (1 : Fin 2) * 128 + 1 * q.val = q.val; omega

theorem flushed_zw (c : Dev nD) (t : Fin cfg1.N) :
    (dat1 V c).flushed 5 t = ((cfg1.win 5).blk t).view.read (Elt Ideal) (Spec.zwOf (Spec.zOf (V c main_arg1) (V c main_v0)) (V c main_arg4)) := by
  show (cfg1.win 5).cut (grid1.coords t) ((dat1 V c).after 5 t) = _
  rw [after1_5]
  unfold out1_5
  rw [View.canon_unit_zero off_zero]
  simp only [View.ld_unit_zero (S := S1024x128) off_zero, View.ld_unit_zero (S := S128x1024) off_zero, View.ld_unit_zero (S := S256x1) off_zero]
  have ht := lt_eight t
  funext j
  obtain ⟨p, q, rfl⟩ : ∃ (p : Fin 128) (q : Fin 128), j = ix2 p q := ⟨j 0, j 1, eq_ix2 j⟩
  show (k1_pay5 (F := Ideal) (iblk1 V c 1 t) (iblk1 V c 0 t) (iblk1 V c 3 t) (ix2 p q) : EReal) = Spec.zwOf (Spec.zOf (V c main_arg1) (V c main_v0)) (V c main_arg4) (((cfg1.win 5).blk t).view.emb (ix2 p q))
  rw [out_zw_at t ht p q]
  refine (SecondBody.zw_apply (iblk1 V c 1 t) (iblk1 V c 0 t) (iblk1 V c 3 t) p q).trans ?_
  rw [z_blk V c t ht p q, in_w3 V c t (Spec.hi q) (0 : Fin 1)]
  rfl

theorem mem_blk_zw (t : Fin cfg1.N) (i : S1024x128.Idx) :
    i ∈ ((cfg1.win 5).blk t).view.set ↔ ∀ a : Fin 2, win1_5.index t a * S128x128.size a ≤ (i a).val ∧ (i a).val < win1_5.index t a * S128x128.size a + S128x128.size a := by
  show i ∈ ((View.whole main_v1_1).slice (win1_5.rect t)).set ↔ _
  rw [View.set_slice_whole, Rect.mem_set_unit]
  exact Iff.rfl

theorem cover_zw (i : S1024x128.Idx) : ∃ t : Fin cfg1.N, (cfg1.win 5).flush t = true ∧ i ∈ ((cfg1.win 5).blk t).view.set := by
  have hi0 : (i 0).val < 1024 := (i 0).isLt
  have hi1 : (i 1).val < 128 := (i 1).isLt
  have hN : cfg1.N = 8 := N_1
  obtain ⟨t, htv⟩ : ∃ t : Fin cfg1.N, t.val = (i 0).val / 128 := ⟨⟨(i 0).val / 128, by omega⟩, rfl⟩
  obtain ⟨e0, e1, e2, e3, e4, e5, e6, e7⟩ := block_out t
  refine ⟨t, flush1_5 t, ?_⟩
  rw [mem_blk_zw]
  intro a
  match a with
  | ⟨0, _⟩ => show win1_5.index t (0 : Fin 2) * 128 ≤ (i 0).val ∧ (i 0).val < win1_5.index t (0 : Fin 2) * 128 + 128; omega
  | ⟨1, _⟩ => show win1_5.index t (1 : Fin 2) * 128 ≤ (i 1).val ∧ (i 1).val < win1_5.index t (1 : Fin 2) * 128 + 128; omega

/-- After the second launch its second result is `z` scaled by the second half of `weight_three`. -/
theorem final_zw (c : Dev nD) : (dat1 V c).arrAt 5 cfg1.N = Spec.zwOf (Spec.zOf (V c main_arg1) (V c main_v0)) (V c main_arg4) :=
  (dat1 V c).arrAt_eq_of_cover 5 _ (fun t _ => flushed_zw V c t) cover_zw

/-! ## Window 6: the column a -/

theorem out_a_at (t : Fin cfg1.N) (ht : t.val < 8) (p : Fin 128) (u : Fin 1) :
    ((cfg1.win 6).blk t).view.emb (ix2 p u) = ix2 (Spec.row t.val ht p) u := by
  obtain ⟨e0, e1, e2, e3, e4, e5, e6, e7⟩ := block_out t
  funext a; apply Fin.ext
  match a with
  | ⟨0, _⟩ => show win1_6.index t (0 : Fin 2) * 128 + 1 * p.val = t.val * 128 + p.val; omega
  | ⟨1, _⟩ => show win1_6.index t (1 : Fin 2) * 1 + 1 * u.val = u.val; omega

theorem flushed_a (c : Dev nD) (t : Fin cfg1.N) :
    (dat1 V c).flushed 6 t = ((cfg1.win 6).blk t).view.read (Elt Ideal) (Spec.aOf (Spec.zOf (V c main_arg1) (V c main_v0)) (V c main_arg3) (V c main_arg4)) := by
  show (cfg1.win 6).cut (grid1.coords t) ((dat1 V c).after 6 t) = _
  rw [after1_6]
  unfold out1_6
  rw [View.canon_unit_zero off_zero]
  simp only [View.ld_unit_zero (S := S1024x128) off_zero, View.ld_unit_zero (S := S128x1024) off_zero, View.ld_unit_zero (S := S256x128) off_zero, View.ld_unit_zero (S := S256x1) off_zero]
  have ht := lt_eight t
  funext j
  obtain ⟨p, u, rfl⟩ : ∃ (p : Fin 128) (u : Fin 1), j = ix2 p u := ⟨j 0, j 1, eq_ix2 j⟩
  show (k1_pay4 (F := Ideal) (iblk1 V c 1 t) (iblk1 V c 0 t) (iblk1 V c 2 t) (iblk1 V c 3 t) (ix2 p u) : EReal) = Spec.aOf (Spec.zOf (V c main_arg1) (V c main_v0)) (V c main_arg3) (V c main_arg4) (((cfg1.win 6).blk t).view.emb (ix2 p u))
  rw [out_a_at t ht p u]
  refine (SecondBody.a_apply (iblk1 V c 1 t) (iblk1 V c 0 t) (iblk1 V c 2 t) (iblk1 V c 3 t) p u).trans ?_
  show _ = Spec.aAt (Spec.zOf (V c main_arg1) (V c main_v0)) (V c main_arg3) (V c main_arg4) (Spec.row t.val ht p)
  unfold Spec.aAt
  refine Finset.sum_congr rfl fun l _ => ?_
  rw [in_w3 V c t (Spec.lo l) (0 : Fin 1)]
  congr 1
  refine Finset.sum_congr rfl fun k _ => ?_
  rw [relu_blk V c t ht p k, in_w2 V c t (Spec.lo k) l]
  rfl

theorem mem_blk_a (t : Fin cfg1.N) (i : S1024x1.Idx) :
    i ∈ ((cfg1.win 6).blk t).view.set ↔ ∀ a : Fin 2, win1_6.index t a * S128x1.size a ≤ (i a).val ∧ (i a).val < win1_6.index t a * S128x1.size a + S128x1.size a := by
  show i ∈ ((View.whole main_v1_2).slice (win1_6.rect t)).set ↔ _
  rw [View.set_slice_whole, Rect.mem_set_unit]
  exact Iff.rfl

theorem cover_a (i : S1024x1.Idx) : ∃ t : Fin cfg1.N, (cfg1.win 6).flush t = true ∧ i ∈ ((cfg1.win 6).blk t).view.set := by
  have hi0 : (i 0).val < 1024 := (i 0).isLt
  have hi1 : (i 1).val < 1 := (i 1).isLt
  have hN : cfg1.N = 8 := N_1
  obtain ⟨t, htv⟩ : ∃ t : Fin cfg1.N, t.val = (i 0).val / 128 := ⟨⟨(i 0).val / 128, by omega⟩, rfl⟩
  obtain ⟨e0, e1, e2, e3, e4, e5, e6, e7⟩ := block_out t
  refine ⟨t, flush1_6 t, ?_⟩
  rw [mem_blk_a]
  intro a
  match a with
  | ⟨0, _⟩ => show win1_6.index t (0 : Fin 2) * 128 ≤ (i 0).val ∧ (i 0).val < win1_6.index t (0 : Fin 2) * 128 + 128; omega
  | ⟨1, _⟩ => show win1_6.index t (1 : Fin 2) * 1 ≤ (i 1).val ∧ (i 1).val < win1_6.index t (1 : Fin 2) * 1 + 1; omega

/-- After the second launch its third result is the column of row scores through the first half of `weight_two`. -/
theorem final_a (c : Dev nD) : (dat1 V c).arrAt 6 cfg1.N = Spec.aOf (Spec.zOf (V c main_arg1) (V c main_v0)) (V c main_arg3) (V c main_arg4) :=
  (dat1 V c).arrAt_eq_of_cover 6 _ (fun t _ => flushed_a V c t) cover_a

/-! ## Window 7: the row b -/

theorem out_b_at (t : Fin cfg1.N) (ht : t.val < 8) (u : Fin 1) (p : Fin 128) :
    ((cfg1.win 7).blk t).view.emb (ix2 u p) = ix2 u (Spec.row t.val ht p) := by
  obtain ⟨e0, e1, e2, e3, e4, e5, e6, e7⟩ := block_out t
  funext a; apply Fin.ext
  match a with
  | ⟨0, _⟩ => show win1_7.index t (0 : Fin 2) * 1 + 1 * u.val = u.val; omega
  | ⟨1, _⟩ => show win1_7.index t (1 : Fin 2) * 128 + 1 * p.val = t.val * 128 + p.val; omega

theorem flushed_b (c : Dev nD) (t : Fin cfg1.N) :
    (dat1 V c).flushed 7 t = ((cfg1.win 7).blk t).view.read (Elt Ideal) (Spec.bOf (Spec.zOf (V c main_arg1) (V c main_v0)) (V c main_arg3) (V c main_arg4)) := by
  show (cfg1.win 7).cut (grid1.coords t) ((dat1 V c).after 7 t) = _
  rw [after1_7]
  unfold out1_7
  rw [View.canon_unit_zero off_zero]
  simp only [View.ld_unit_zero (S := S1024x128) off_zero, View.ld_unit_zero (S := S128x1024) off_zero, View.ld_unit_zero (S := S256x128) off_zero, View.ld_unit_zero (S := S256x1) off_zero]
  have ht := lt_eight t
  funext j
  obtain ⟨u, p, rfl⟩ : ∃ (u : Fin 1) (p : Fin 128), j = ix2 u p := ⟨j 0, j 1, eq_ix2 j⟩
  show (k1_pay6 (F := Ideal) (iblk1 V c 1 t) (iblk1 V c 0 t) (iblk1 V c 2 t) (iblk1 V c 3 t) (ix2 u p) : EReal) = Spec.bOf (Spec.zOf (V c main_arg1) (V c main_v0)) (V c main_arg3) (V c main_arg4) (((cfg1.win 7).blk t).view.emb (ix2 u p))
  rw [out_b_at t ht u p]
  refine (SecondBody.b_apply (iblk1 V c 1 t) (iblk1 V c 0 t) (iblk1 V c 2 t) (iblk1 V c 3 t) u p).trans ?_
  show _ = Spec.bAt (Spec.zOf (V c main_arg1) (V c main_v0)) (V c main_arg3) (V c main_arg4) (Spec.row t.val ht p)
  unfold Spec.bAt
  refine Finset.sum_congr rfl fun l _ => ?_
  rw [in_w3 V c t (Spec.lo l) (0 : Fin 1)]
  congr 1
  refine Finset.sum_congr rfl fun k _ => ?_
  rw [relu_blk V c t ht p k, in_w2 V c t (Spec.hi k) l]
  rfl

theorem mem_blk_b (t : Fin cfg1.N) (i : S1x1024.Idx) :
    i ∈ ((cfg1.win 7).blk t).view.set ↔ ∀ a : Fin 2, win1_7.index t a * S1x128.size a ≤ (i a).val ∧ (i a).val < win1_7.index t a * S1x128.size a + S1x128.size a := by
  show i ∈ ((View.whole main_v1_3).slice (win1_7.rect t)).set ↔ _
  rw [View.set_slice_whole, Rect.mem_set_unit]
  exact Iff.rfl

theorem cover_b (i : S1x1024.Idx) : ∃ t : Fin cfg1.N, (cfg1.win 7).flush t = true ∧ i ∈ ((cfg1.win 7).blk t).view.set := by
  have hi0 : (i 0).val < 1 := (i 0).isLt
  have hi1 : (i 1).val < 1024 := (i 1).isLt
  have hN : cfg1.N = 8 := N_1
  obtain ⟨t, htv⟩ : ∃ t : Fin cfg1.N, t.val = (i 1).val / 128 := ⟨⟨(i 1).val / 128, by omega⟩, rfl⟩
  obtain ⟨e0, e1, e2, e3, e4, e5, e6, e7⟩ := block_out t
  refine ⟨t, flush1_7 t, ?_⟩
  rw [mem_blk_b]
  intro a
  match a with
  | ⟨0, _⟩ => show win1_7.index t (0 : Fin 2) * 1 ≤ (i 0).val ∧ (i 0).val < win1_7.index t (0 : Fin 2) * 1 + 1; omega
  | ⟨1, _⟩ => show win1_7.index t (1 : Fin 2) * 128 ≤ (i 1).val ∧ (i 1).val < win1_7.index t (1 : Fin 2) * 128 + 128; omega

/-- After the second launch its fourth result is the row of row scores through the second half of `weight_two`. -/
theorem final_b (c : Dev nD) : (dat1 V c).arrAt 7 cfg1.N = Spec.bOf (Spec.zOf (V c main_arg1) (V c main_v0)) (V c main_arg3) (V c main_arg4) :=
  (dat1 V c).arrAt_eq_of_cover 7 _ (fun t _ => flushed_b V c t) cover_b

end Cert.KernelIdeal.Second

end
-- ==== Proof.ThirdBody.lean ====
/-
  The third launch's body on one block, read entry by entry. From a 128-row block of `zw`, all of `z`, the same rows
  of the column `a` and the whole row `b`:
    out[p,j] = logistic ((Σ_k zw[p,k] · z[j,k] + a[p]) + b[j]).
-/
import proofs.«139175_j24885040513650_2_alg».proof.Proof.Gen.KernelIdeal.Skeleton
import proofs.«139175_j24885040513650_2_alg».proof.Proof.Products
import proofs.«139175_j24885040513650_2_alg».proof.Proof.LibLayout
import Idealize.ShloMosaic.Lib.ValueLayout

noncomputable section

namespace Cert.KernelIdeal.ThirdBody

open Cert.KernelIdeal Cert.KernelIdeal.Gen Idealize.ShloMosaic Idealize.ShloMosaic.TcCoe Idealize.SL.Sem
open Idealize.ShloMosaic.ValueIdx Cert.LibLayout

variable (v0 : Vec Ideal S128x128 .f32) (v2 : Vec Ideal S1024x128 .f32) (v5 : Vec Ideal S128x1 .f32) (v7 : Vec Ideal S1x1024 .f32)

/-- The stored value at (p, j). -/
theorem out_apply (p : Fin 128) (j : Fin 1024) :
    (k2_pay1 (F := Ideal) v0 v2 v5 v7 (ix2 p j) : EReal)
      = Ideal.logistic (((∑ k : Fin 128, v0 (ix2 p k) * v2 (ix2 j k)) + v5 (ix2 p (0 : Fin 1))) + v7 (ix2 (0 : Fin 1) j)) := by
  unfold k2_pay1
  simp only [shapeCast_self]
  change Ideal.logistic _ = _
  refine congrArg Ideal.logistic ?_
  refine (addf_apply _ _ (ix2 p j)).trans ?_
  congr 1
  · refine (addf_apply _ _ (ix2 p j)).trans ?_
    congr 1
    · exact Products.cross_apply v0 v2 p j
    · exact broadcastTo_a1_ab_apply _ _ p j
  · exact broadcastTo_1b_ab_apply _ _ p j

end Cert.KernelIdeal.ThirdBody

end
-- ==== Proof.Third.lean ====
/-
  The third launch: each grid point `t` takes rows `128t … 128t+127` of `zw` and of the column `a`, all of `z` and of
  the row `b`, and writes back the same rows of the result. The eight row blocks tile the result, so after the launch
  the result array is `outOf` of the four arrays the launch found.
-/
import proofs.«139175_j24885040513650_2_alg».proof.Proof.Gen.KernelIdeal.Frame
import proofs.«139175_j24885040513650_2_alg».proof.Proof.Spec
import proofs.«139175_j24885040513650_2_alg».proof.Proof.ThirdBody
import Idealize.ShloMosaic.Lib.Pipeline.Value
import Idealize.ShloMosaic.Lib.ValueIdx

noncomputable section

namespace Cert.KernelIdeal.Third

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem off_zero : (![0, 0] : Fin 2 → Nat) = fun _ => 0 := funext fun a => by fin_cases a <;> rfl

/-- Where the windows' blocks sit at point `t`: row block `t` of `zw`, of `a` and of the result; `z` and `b` whole. -/
theorem block_at : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem lt_eight (t : Fin cfg2.N) : t.val < 8 := by
  have h := t.isLt
  have hN : cfg2.N = 8 := N_2
  omega

theorem in_zw (c : Dev nD) (t : Fin cfg2.N) (ht : t.val < 8) (p : Fin 128) (k : Fin 128) :
    (iblk2 V c 0 t (ix2 p k) : EReal) = (V c main_v1_1 : Spec.Arr 1024 128) (ix2 (Spec.row t.val ht p) k) := by
  obtain ⟨e0, e1, e2, e3, e4, e5, e6, e7, e8, e9⟩ := block_at t
  show (V c main_v1_1 : Spec.Arr 1024 128) (((cfg2.win 0).blk t).view.emb (ix2 p k)) = _
  refine congrArg _ (funext fun a => Fin.ext ?_)
  match a with
  | ⟨0, _⟩ => show win2_0.index t (0 : Fin 2) * 128 + 1 * p.val = t.val * 128 + p.val; omega
  | ⟨1, _⟩ => show win2_0.index t (1 : Fin 2) * 128 + 1 * k.val = k.val; omega

theorem in_z (c : Dev nD) (t : Fin cfg2.N) (j : Fin 1024) (k : Fin 128) :
    (iblk2 V c 1 t (ix2 j k) : EReal) = (V c main_v1_0 : Spec.Arr 1024 128) (ix2 j k) := by
  obtain ⟨e0, e1, e2, e3, e4, e5, e6, e7, e8, e9⟩ := block_at t
  show (V c main_v1_0 : Spec.Arr 1024 128) (((cfg2.win 1).blk t).view.emb (ix2 j k)) = _
  refine congrArg _ (funext fun a => Fin.ext ?_)
  match a with
  | ⟨0, _⟩ => show win2_1.index t (0 : Fin 2) * 1024 + 1 * j.val = j.val; omega
  | ⟨1, _⟩ => show win2_1.index t (1 : Fin 2) * 128 + 1 * k.val = k.val; omega

theorem in_a (c : Dev nD) (t : Fin cfg2.N) (ht : t.val < 8) (p : Fin 128) (u : Fin 1) :
    (iblk2 V c 2 t (ix2 p u) : EReal) = (V c main_v1_2 : Spec.Arr 1024 1) (ix2 (Spec.row t.val ht p) u) := by
  obtain ⟨e0, e1, e2, e3, e4, e5, e6, e7, e8, e9⟩ := block_at t
  show (V c main_v1_2 : Spec.Arr 1024 1) (((cfg2.win 2).blk t).view.emb (ix2 p u)) = _
  refine congrArg _ (funext fun a => Fin.ext ?_)
  match a with
  | ⟨0, _⟩ => show win2_2.index t (0 : Fin 2) * 128 + 1 * p.val = t.val * 128 + p.val; omega
  | ⟨1, _⟩ => show win2_2.index t (1 : Fin 2) * 1 + 1 * u.val = u.val; omega

theorem in_b (c : Dev nD) (t : Fin cfg2.N) (u : Fin 1) (j : Fin 1024) :
    (iblk2 V c 3 t (ix2 u j) : EReal) = (V c main_v1_3 : Spec.Arr 1 1024) (ix2 u j) := by
  obtain ⟨e0, e1, e2, e3, e4, e5, e6, e7, e8, e9⟩ := block_at t
  show (V c main_v1_3 : Spec.Arr 1 1024) (((cfg2.win 3).blk t).view.emb (ix2 u j)) = _
  refine congrArg _ (funext fun a => Fin.ext ?_)
  match a with
  | ⟨0, _⟩ => show win2_3.index t (0 : Fin 2) * 1 + 1 * u.val = u.val; omega
  | ⟨1, _⟩ => show win2_3.index t (1 : Fin 2) * 1024 + 1 * j.val = j.val; omega

theorem out_at (t : Fin cfg2.N) (ht : t.val < 8) (p : Fin 128) (j : Fin 1024) :
    ((cfg2.win 4).blk t).view.emb (ix2 p j) = ix2 (Spec.row t.val ht p) j := by
  obtain ⟨e0, e1, e2, e3, e4, e5, e6, e7, e8, e9⟩ := block_at t
  funext a; apply Fin.ext
  match a with
  | ⟨0, _⟩ => show win2_4.index t (0 : Fin 2) * 128 + 1 * p.val = t.val * 128 + p.val; omega
  | ⟨1, _⟩ => show win2_4.index t (1 : Fin 2) * 1024 + 1 * j.val = j.val; omega

/-- What point `t` writes back is block `t` of `outOf`. -/
theorem flushed_eq (c : Dev nD) (t : Fin cfg2.N) :
    (dat2 V c).flushed 4 t = ((cfg2.win 4).blk t).view.read (Elt Ideal) (Spec.outOf (V c main_v1_1) (V c main_v1_0) (V c main_v1_2) (V c main_v1_3)) := by
  show (cfg2.win 4).cut (grid2.coords t) ((dat2 V c).after 4 t) = _
  rw [after2_4]
  unfold out2_4
  rw [View.canon_unit_zero off_zero]
  simp only [View.ld_unit_zero (S := S128x128) off_zero, View.ld_unit_zero (S := S1024x128) off_zero, View.ld_unit_zero (S := S128x1) off_zero, View.ld_unit_zero (S := S1x1024) off_zero]
  have ht := lt_eight t
  funext i
  obtain ⟨p, j, rfl⟩ : ∃ (p : Fin 128) (j : Fin 1024), i = ix2 p j := ⟨i 0, i 1, eq_ix2 i⟩
  show (k2_pay1 (F := Ideal) (iblk2 V c 0 t) (iblk2 V c 1 t) (iblk2 V c 2 t) (iblk2 V c 3 t) (ix2 p j) : EReal) = Spec.outOf (V c main_v1_1) (V c main_v1_0) (V c main_v1_2) (V c main_v1_3) (((cfg2.win 4).blk t).view.emb (ix2 p j))
  rw [out_at t ht p j]
  refine (ThirdBody.out_apply (iblk2 V c 0 t) (iblk2 V c 1 t) (iblk2 V c 2 t) (iblk2 V c 3 t) p j).trans ?_
  show _ = Ideal.logistic (Spec.scoreAt (V c main_v1_1) (V c main_v1_0) (V c main_v1_2) (V c main_v1_3) (Spec.row t.val ht p) j)
  unfold Spec.scoreAt
  rw [in_a V c t ht p (0 : Fin 1), in_b V c t (0 : Fin 1) j]
  refine congrArg Ideal.logistic ?_
  congr 2
  refine Finset.sum_congr rfl fun k _ => ?_
  rw [in_zw V c t ht p k, in_z V c t j k]

theorem mem_blk (t : Fin cfg2.N) (i : S1024x1024.Idx) :
    i ∈ ((cfg2.win 4).blk t).view.set ↔ ∀ a : Fin 2, win2_4.index t a * S128x1024.size a ≤ (i a).val ∧ (i a).val < win2_4.index t a * S128x1024.size a + S128x1024.size a := by
  show i ∈ ((View.whole main_v2).slice (win2_4.rect t)).set ↔ _
  rw [View.set_slice_whole, Rect.mem_set_unit]
  exact Iff.rfl

theorem cover (i : S1024x1024.Idx) : ∃ t : Fin cfg2.N, (cfg2.win 4).flush t = true ∧ i ∈ ((cfg2.win 4).blk t).view.set := by
  have hi0 : (i 0).val < 1024 := (i 0).isLt
  have hi1 : (i 1).val < 1024 := (i 1).isLt
  have hN : cfg2.N = 8 := N_2
  obtain ⟨t, htv⟩ : ∃ t : Fin cfg2.N, t.val = (i 0).val / 128 := ⟨⟨(i 0).val / 128, by omega⟩, rfl⟩
  obtain ⟨e0, e1, e2, e3, e4, e5, e6, e7, e8, e9⟩ := block_at t
  refine ⟨t, flush2_4 t, ?_⟩
  rw [mem_blk]
  intro a
  match a with
  | ⟨0, _⟩ => show win2_4.index t (0 : Fin 2) * 128 ≤ (i 0).val ∧ (i 0).val < win2_4.index t (0 : Fin 2) * 128 + 128; omega
  | ⟨1, _⟩ => show win2_4.index t (1 : Fin 2) * 1024 ≤ (i 1).val ∧ (i 1).val < win2_4.index t (1 : Fin 2) * 1024 + 1024; omega

/-- After the third launch its result array is `outOf` of the arrays the launch found. -/
theorem final (c : Dev nD) : (dat2 V c).arrAt 4 cfg2.N = Spec.outOf (V c main_v1_1) (V c main_v1_0) (V c main_v1_2) (V c main_v1_3) :=
  (dat2 V c).arrAt_eq_of_cover 4 _ (fun t _ => flushed_eq V c t) cover

end Cert.KernelIdeal.Third

end
-- ==== Proof.Algebra.lean ====
/-
  The law that joins the two programs. For a pair of rows (p, q) the reference contracts the 256 channels
    [ relu(z_p, z_q) · weight_two  ;  z_p ⊙ z_q ]
  against `weight_three`; the kernel adds three separately prepared terms. Splitting each 256-term sum into its two
  halves of 128 costs nothing on the extended reals, but moving `weight_three` across the inner sum is
  distributivity, which fails at the infinities: so the law is proved for arrays whose entries are real numbers, by
  pushing the coercion ℝ → EReal to the outside and computing in ℝ. A dot product of real entries is again real,
  which is how `z` inherits finiteness from the five float inputs.
-/
import proofs.«139175_j24885040513650_2_alg».proof.Proof.Spec

noncomputable section

namespace Cert.Spec

open Idealize.ShloMosaic Idealize.ShloMosaic.ValueIdx

/-- The coercion ℝ → EReal of a finite sum is the sum of the coercions. -/
@[norm_cast]
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the positive part. -/
theorem coe_relu (r : ℝ) : max (r : EReal) 0 = ((max r 0 : ℝ) : EReal) := by
  rw [← EReal.coe_zero]
  exact (EReal.coe_strictMono.monotone.map_max).symm

/-- An extended real that is a real number. -/
def IsReal (x : EReal) : Prop := x ≠ ⊤ ∧ x ≠ ⊥

theorem isReal_coe (r : ℝ) : IsReal (r : EReal) := ⟨EReal.coe_ne_top r, EReal.coe_ne_bot r⟩

/-- A family of real extended reals is the coercion of a family of reals. -/
theorem exists_real {ι : Type*} (f : ι → EReal) (hf : ∀ i, IsReal (f i)) : ∃ a : ι → ℝ, f = fun i => (a i : EReal) :=
  ⟨fun i => (f i).toReal, funext fun i => (EReal.coe_toReal (hf i).1 (hf i).2).symm⟩

/-- A dot product of real entries is real. -/
theorem isReal_dot {ι : Type*} [Fintype ι] (f g : ι → EReal) (hf : ∀ k, IsReal (f k)) (hg : ∀ k, IsReal (g k)) :
    IsReal (∑ k, f k * g k) := by
  obtain ⟨a, rfl⟩ := exists_real f hf
  obtain ⟨b, rfl⟩ := exists_real g hg
  have e : (∑ k, ((a k : ℝ) : EReal) * ((b k : ℝ) : EReal)) = ((∑ k, a k * b k : ℝ) : EReal) := by
    rw [coe_sum]; simp only [EReal.coe_mul]
  rw [e]; exact isReal_coe _

theorem isReal_xOf (a : Arr 1024 512) (w : Arr 512 128) (ha : ∀ i, IsReal (a i)) (hw : ∀ i, IsReal (w i)) (i : (⟨2, ![1024, 128]⟩ : Shape).Idx) :
    IsReal (xOf a w i) := by
  show IsReal (∑ k : Fin 512, a (ix2 (i 0) k) * w (ix2 k (i 1)))
  exact isReal_dot (fun k : Fin 512 => a (ix2 (i 0) k)) (fun k : Fin 512 => w (ix2 k (i 1))) (fun _ => ha _) (fun _ => hw _)

theorem isReal_zOf (adj : Arr 1024 1024) (x : Arr 1024 128) (ha : ∀ i, IsReal (adj i)) (hx : ∀ i, IsReal (x i)) (i : (⟨2, ![1024, 128]⟩ : Shape).Idx) :
    IsReal (zOf adj x i) := by
  show IsReal (∑ k : Fin 1024, adj (ix2 (i 0) k) * x (ix2 k (i 1)))
  exact isReal_dot (fun k : Fin 1024 => adj (ix2 (i 0) k)) (fun k : Fin 1024 => x (ix2 k (i 1))) (fun _ => ha _) (fun _ => hx _)

/-- A sum over 256 positions is the sum over the first 128 plus the sum over the last 128. -/
theorem sum_halves {M : Type*} [AddCommMonoid M] (f : Fin 256 → M) :
    ∑ c, f c = (∑ k : Fin 128, f (lo k)) + ∑ k : Fin 128, f (hi k) :=
  Fin.sum_univ_add (a := 128) (b := 128) (fun c : Fin (128 + 128) => f c)

/-- The reference's score of the pair (p, q), its two 256-term sums already split into halves. -/
def refScoreAt (z : Arr 1024 128) (w2 : Arr 256 128) (w3 : Arr 256 1) (p q : Fin 1024) : EReal :=
  (∑ l : Fin 128, ((∑ k : Fin 128, max (z (ix2 p k)) 0 * w2 (ix2 (lo k) l)) + (∑ k : Fin 128, max (z (ix2 q k)) 0 * w2 (ix2 (hi k) l)))
      * w3 (ix2 (lo l) 0))
    + ∑ k : Fin 128, (z (ix2 p k) * z (ix2 q k)) * w3 (ix2 (hi k) 0)

theorem zwOf_ix (z : Arr 1024 128) (w3 : Arr 256 1) (p : Fin 1024) (q : Fin 128) :
    zwOf z w3 (ix2 p q) = z (ix2 p q) * w3 (ix2 (hi q) 0) := rfl
theorem aOf_ix (z : Arr 1024 128) (w2 : Arr 256 128) (w3 : Arr 256 1) (p : Fin 1024) (u : Fin 1) :
    aOf z w2 w3 (ix2 p u) = aAt z w2 w3 p := rfl
theorem bOf_ix (z : Arr 1024 128) (w2 : Arr 256 128) (w3 : Arr 256 1) (u : Fin 1) (q : Fin 1024) :
    bOf z w2 w3 (ix2 u q) = bAt z w2 w3 q := rfl

/-- The law, over the reals: the kernel's three terms are the reference's contraction. -/
theorem score_real (zp zq : Fin 128 → ℝ) (w2lo w2hi : Fin 128 → Fin 128 → ℝ) (w3lo w3hi : Fin 128 → ℝ) :
    ((∑ k, (zp k * w3hi k) * zq k) + ∑ l, (∑ k, max (zp k) 0 * w2lo k l) * w3lo l) + ∑ l, (∑ k, max (zq k) 0 * w2hi k l) * w3lo l
      = (∑ l, ((∑ k, max (zp k) 0 * w2lo k l) + ∑ k, max (zq k) 0 * w2hi k l) * w3lo l) + ∑ k, (zp k * zq k) * w3hi k := by
  have e1 : (∑ k, (zp k * w3hi k) * zq k) = ∑ k, (zp k * zq k) * w3hi k := Finset.sum_congr rfl fun k _ => by ring
  rw [e1]
  simp only [add_mul, Finset.sum_add_distrib]
  ring

/-- The law on the extended reals, for arrays of real entries. -/
theorem score_eq (z : Arr 1024 128) (w2 : Arr 256 128) (w3 : Arr 256 1)
    (hz : ∀ i, IsReal (z i)) (hw2 : ∀ i, IsReal (w2 i)) (hw3 : ∀ i, IsReal (w3 i)) (p q : Fin 1024) :
    scoreAt (zwOf z w3) z (aOf z w2 w3) (bOf z w2 w3) p q = refScoreAt z w2 w3 p q := by
  obtain ⟨zr, rfl⟩ := exists_real z hz
  obtain ⟨w2r, rfl⟩ := exists_real w2 hw2
  obtain ⟨w3r, rfl⟩ := exists_real w3 hw3
  unfold scoreAt refScoreAt
  simp only [zwOf_ix, aOf_ix, bOf_ix, aAt, bAt, coe_relu]
  have h := score_real (fun k => zr (ix2 p k)) (fun k => zr (ix2 q k)) (fun k l => w2r (ix2 (lo k) l)) (fun k l => w2r (ix2 (hi k) l))
    (fun l => w3r (ix2 (lo l) 0)) (fun k => w3r (ix2 (hi k) 0))
  have h' := congrArg (fun r : ℝ => (r : EReal)) h
  simp only [EReal.coe_add, coe_sum, EReal.coe_mul] at h'
  exact h'

end Cert.Spec

end
-- ==== Proof.Bridge.lean ====
/-
  The kernel's result as one function of the five float arguments, and the law at each entry: for arguments with
  real entries the kernel's score of a pair is the reference's, so the results agree after the logistic function.
-/
import proofs.«139175_j24885040513650_2_alg».proof.Proof.Algebra

noncomputable section

namespace Cert.Spec

open Idealize.ShloMosaic Idealize.ShloMosaic.ValueIdx

/-- What the three launches leave in the result buffer, from the arguments. -/
def kernelOut (inp : Arr 1024 512) (adj : Arr 1024 1024) (w : Arr 512 128) (w2 : Arr 256 128) (w3 : Arr 256 1) : Arr 1024 1024 :=
  outOf (zwOf (zOf adj (xOf inp w)) w3) (zOf adj (xOf inp w)) (aOf (zOf adj (xOf inp w)) w2 w3) (bOf (zOf adj (xOf inp w)) w2 w3)

/-- Entry (p, q) of the kernel's result is the logistic function of the reference's score, when every argument entry
    is a real number. -/
theorem kernelOut_ix (inp : Arr 1024 512) (adj : Arr 1024 1024) (w : Arr 512 128) (w2 : Arr 256 128) (w3 : Arr 256 1)
    (hinp : ∀ i, IsReal (inp i)) (hadj : ∀ i, IsReal (adj i)) (hw : ∀ i, IsReal (w i)) (hw2 : ∀ i, IsReal (w2 i)) (hw3 : ∀ i, IsReal (w3 i))
    (p q : Fin 1024) :
    kernelOut inp adj w w2 w3 (ix2 p q) = Ideal.logistic (refScoreAt (zOf adj (xOf inp w)) w2 w3 p q) := by
  show Ideal.logistic (scoreAt (zwOf (zOf adj (xOf inp w)) w3) (zOf adj (xOf inp w)) (aOf (zOf adj (xOf inp w)) w2 w3) (bOf (zOf adj (xOf inp w)) w2 w3) p q) = _
  rw [score_eq (zOf adj (xOf inp w)) w2 w3 (fun i => isReal_zOf adj (xOf inp w) hadj (fun j => isReal_xOf inp w hinp hw j) i) hw2 hw3 p q]

end Cert.Spec

end
-- ==== Proof.Chain.lean ====
/-
  The idealized kernel's value. The result buffer ends at what the third launch's write-backs leave in it; that
  launch found `zw`, `z`, `a` and `b` as the second launch left them; the second found `x` as the first left it;
  and none of the launches writes an argument, so each finds the arguments as launched. Composing the three
  launches' functions gives `Spec.kernelOut` of the launch memory's arguments.
-/
import proofs.«139175_j24885040513650_2_alg».proof.Proof.KernelRun
import proofs.«139175_j24885040513650_2_alg».proof.Proof.First
import proofs.«139175_j24885040513650_2_alg».proof.Proof.Second
import proofs.«139175_j24885040513650_2_alg».proof.Proof.Third
import proofs.«139175_j24885040513650_2_alg».proof.Proof.Bridge

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The second launch finds `x = inputs · weight`. -/
theorem x_found (c : Dev nD) :
    (V1 m ρ c main_v0 : Spec.Arr 1024 128) = Spec.xOf (m ((c : Thread nD τ).loc main_arg0)) (m ((c : Thread nD τ).loc main_arg2)) :=
  (W1_arr m ρ c 2).trans (First.final (V0 m ρ) c)

/-- It finds `adj`, `weight_two` and `weight_three` as launched. -/
theorem adj_found (c : Dev nD) : V1 m ρ c main_arg1 = m ((c : Thread nD τ).loc main_arg1) := W1_of_ne m ρ c main_arg1 (by decide)
theorem w2_found (c : Dev nD) : V1 m ρ c main_arg3 = m ((c : Thread nD τ).loc main_arg3) := W1_of_ne m ρ c main_arg3 (by decide)
theorem w3_found (c : Dev nD) : V1 m ρ c main_arg4 = m ((c : Thread nD τ).loc main_arg4) := W1_of_ne m ρ c main_arg4 (by decide)

/-- `z` of the launch memory's arguments. -/
abbrev zOfMem (c : Dev nD) : Spec.Arr 1024 128 :=
  Spec.zOf (m ((c : Thread nD τ).loc main_arg1)) (Spec.xOf (m ((c : Thread nD τ).loc main_arg0)) (m ((c : Thread nD τ).loc main_arg2)))

/-- The third launch finds the second's four results. -/
theorem z_found (c : Dev nD) : (V2 m ρ c main_v1_0 : Spec.Arr 1024 128) = zOfMem m c := by
  have h := (W2_arr m ρ c 4).trans (Second.final_z (V1 m ρ) c)
  rw [x_found m ρ c, adj_found m ρ c] at h
  exact h
theorem zw_found (c : Dev nD) :
    (V2 m ρ c main_v1_1 : Spec.Arr 1024 128) = Spec.zwOf (zOfMem m c) (m ((c : Thread nD τ).loc main_arg4)) := by
  have h := (W2_arr m ρ c 5).trans (Second.final_zw (V1 m ρ) c)
  rw [x_found m ρ c, adj_found m ρ c, w3_found m ρ c] at h
  exact h
theorem a_found (c : Dev nD) :
    (V2 m ρ c main_v1_2 : Spec.Arr 1024 1) = Spec.aOf (zOfMem m c) (m ((c : Thread nD τ).loc main_arg3)) (m ((c : Thread nD τ).loc main_arg4)) := by
  have h := (W2_arr m ρ c 6).trans (Second.final_a (V1 m ρ) c)
  rw [x_found m ρ c, adj_found m ρ c, w2_found m ρ c, w3_found m ρ c] at h
  exact h
theorem b_found (c : Dev nD) :
    (V2 m ρ c main_v1_3 : Spec.Arr 1 1024) = Spec.bOf (zOfMem m c) (m ((c : Thread nD τ).loc main_arg3)) (m ((c : Thread nD τ).loc main_arg4)) := by
  have h := (W2_arr m ρ c 7).trans (Second.final_b (V1 m ρ) c)
  rw [x_found m ρ c, adj_found m ρ c, w2_found m ρ c, w3_found m ρ c] at h
  exact h

/-- The result buffer after the run. -/
theorem result_eq (c : Dev nD) :
    W3 m ρ c (Proc.devRef .tc main_v2)
      = Spec.kernelOut (m ((c : Thread nD τ).loc main_arg0)) (m ((c : Thread nD τ).loc main_arg1)) (m ((c : Thread nD τ).loc main_arg2))
          (m ((c : Thread nD τ).loc main_arg3)) (m ((c : Thread nD τ).loc main_arg4)) := by
  have h := (W3_arr m ρ c 4).trans (Third.final (V2 m ρ) c)
  rw [zw_found m ρ c, z_found m ρ c, a_found m ρ c, b_found m ρ c] at h
  exact h

/-- Every weakly fair execution of the idealized kernel terminates without a fault, its result at `Spec.kernelOut` of the
    arguments and the arguments unchanged. -/
theorem run : θ_run defs (onTc (τ := τ) (main (F := Ideal))) ⟨m, fun _ => 0, ρ⟩ (fun r => ∀ c : Dev nD,
      r.2.mem ((c.tc : Thread nD τ).loc main_v2)
        = Spec.kernelOut (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Run.run_result m ρ)

end Cert.KernelIdeal.Chain

end
-- ==== Proof.RefValue.lean ====
/-
  The reference, read entry by entry. Its result at (p, q) is
    logistic (Σ_{c<256} cat2[p,q,c] · weight_three[c]),
  where cat2 joins `relu(cat1) · weight_two` (128 channels) with `z_p ⊙ z_q` (128 channels), cat1 joins `z_p` with
  `z_q`, and `z = adj · (inputs · weight)`. Each joined axis is read on its two halves, and each 256-term sum split
  accordingly; what is left is `Spec.refScoreAt`.
-/
import proofs.«139175_j24885040513650_2_alg».proof.Proof.Gen.ReferenceIdeal.Read
import proofs.«139175_j24885040513650_2_alg».proof.Proof.Algebra
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

variable (x0 : (⟨S1024x512, .f32⟩ : BufTy).Contents (Elt Ideal)) (x1 : (⟨S1024x1024, .f32⟩ : BufTy).Contents (Elt Ideal)) (x2 : (⟨S512x128, .f32⟩ : BufTy).Contents (Elt Ideal))
  (x3 : (⟨S256x128, .f32⟩ : BufTy).Contents (Elt Ideal)) (x4 : (⟨S256x1, .f32⟩ : BufTy).Contents (Elt Ideal))

/-! ## x and z -/

theorem lidx0 (i : S1024x128.Idx) (k : Fin 512) : lidx_main_v0 i k = ix2 (i 0) k :=
  funext fun a => Fin.ext (by match a with | ⟨0, _⟩ => rfl | ⟨1, _⟩ => rfl)
theorem ridx0 (i : S1024x128.Idx) (k : Fin 512) : ridx_main_v0 i k = ix2 k (i 1) :=
  funext fun a => Fin.ext (by match a with | ⟨0, _⟩ => rfl | ⟨1, _⟩ => rfl)
theorem lidx1 (i : S1024x128.Idx) (k : Fin 1024) : lidx_main_v1 i k = ix2 (i 0) k :=
  funext fun a => Fin.ext (by match a with | ⟨0, _⟩ => rfl | ⟨1, _⟩ => rfl)
theorem ridx1 (i : S1024x128.Idx) (k : Fin 1024) : ridx_main_v1 i k = ix2 k (i 1) :=
  funext fun a => Fin.ext (by match a with | ⟨0, _⟩ => rfl | ⟨1, _⟩ => rfl)

/-- The first product is `inputs · weight`. -/
theorem x_eq : val_main_v0 (F := Ideal) x0 x2 = Spec.xOf x0 x2 := by
  funext i
  rw [val_main_v0_apply]
  show _ = ∑ k : Fin 512, (x0 : Spec.Arr 1024 512) (ix2 (i 0) k) * (x2 : Spec.Arr 512 128) (ix2 k (i 1))
  refine Finset.sum_congr rfl fun k _ => ?_
  rw [lidx0, ridx0]
  rfl

/-- The second is `adj · x`. -/
theorem z_eq : val_main_v1 (F := Ideal) x0 x1 x2 = Spec.zOf x1 (Spec.xOf x0 x2) := by
  funext i
  rw [val_main_v1_apply, x_eq]
  show _ = ∑ k : Fin 1024, (x1 : Spec.Arr 1024 1024) (ix2 (i 0) k) * Spec.xOf x0 x2 (ix2 k (i 1))
  refine Finset.sum_congr rfl fun k _ => ?_
  rw [lidx1, ridx1]
  rfl

/-! ## The pair tensors -/

/-- z1[p,q,k] = z[p,k]. -/
theorem z1_ix (p q : Fin 1024) (k : Fin 128) :
    val_main_v3 (F := Ideal) x0 x1 x2 (ix3 p q k) = val_main_v1 (F := Ideal) x0 x1 x2 (ix2 p k) := by
  rw [val_main_v3_apply, val_main_v2_apply]
  exact congrArg _ (funext fun a => Fin.ext (by match a with | ⟨0, _⟩ => rfl | ⟨1, _⟩ => rfl))

/-- z2[p,q,k] = z[q,k]. -/
theorem z2_ix (p q : Fin 1024) (k : Fin 128) :
    val_main_v5 (F := Ideal) x0 x1 x2 (ix3 p q k) = val_main_v1 (F := Ideal) x0 x1 x2 (ix2 q k) := by
  rw [val_main_v5_apply, val_main_v4_apply]
  exact congrArg _ (funext fun a => Fin.ext (by match a with | ⟨0, _⟩ => rfl | ⟨1, _⟩ => rfl))

/-- The first join on its first half: z[p,k]. -/
theorem cat1_lo (p q : Fin 1024) (k : Fin 128) :
    val_main_v6 (F := Ideal) x0 x1 x2 (ix3 p q (Spec.lo k)) = val_main_v1 (F := Ideal) x0 x1 x2 (ix2 p k) := by
  unfold val_main_v6
  refine (concatenate_pair_apply_left (t := S1024x1024x256) (s₁ := S1024x1024x128) (s₂ := S1024x1024x128) 2 _ _ concatenates_S1024x1024x128_S1024x1024x128_S1024x1024x256_d2 (ix3 p q (Spec.lo k)) rfl (ix3 p q k)
    (fun b => by match b with | ⟨0, _⟩ => rfl | ⟨1, _⟩ => rfl | ⟨2, _⟩ => rfl)).trans ?_
  exact z1_ix x0 x1 x2 p q k

/-- The first join on its second half: z[q,k]. -/
theorem cat1_hi (p q : Fin 1024) (k : Fin 128) :
    val_main_v6 (F := Ideal) x0 x1 x2 (ix3 p q (Spec.hi k)) = val_main_v1 (F := Ideal) x0 x1 x2 (ix2 q k) := by
  unfold val_main_v6
  refine (concatenate_pair_apply_right (t := S1024x1024x256) (s₁ := S1024x1024x128) (s₂ := S1024x1024x128) 2 _ _ concatenates_S1024x1024x128_S1024x1024x128_S1024x1024x256_d2 (ix3 p q (Spec.hi k)) rfl rfl (ix3 p q k)
    (fun b hb => by
      match b with
      | ⟨0, _⟩ => rfl
      | ⟨1, _⟩ => rfl
      | ⟨2, _⟩ => exact absurd (Fin.ext rfl) hb)
    (by show k.val + 128 = 128 + k.val; omega)).trans ?_
  exact z2_ix x0 x1 x2 p q k

/-- The positive part of the first join. -/
theorem relu_ix (p q : Fin 1024) (c : Fin 256) :
    val_main_v7 (F := Ideal) x0 x1 x2 (ix3 p q c) = max (val_main_v6 (F := Ideal) x0 x1 x2 (ix3 p q c)) 0 := by
  rw [val_main_v7_apply, val_main_call0_v0_apply, val_main_call0_cst_apply]
  show max _ (Ideal.ofBits .f32 0x00000000#32) = _
  rw [Ideal.ofBits_zero_f32]

theorem lidx8 (p q : Fin 1024) (l : Fin 128) (c : Fin 256) : lidx_main_v8 (ix3 p q l) c = ix3 p q c :=
  funext fun a => Fin.ext (by match a with | ⟨0, _⟩ => rfl | ⟨1, _⟩ => rfl | ⟨2, _⟩ => rfl)
theorem ridx8 (p q : Fin 1024) (l : Fin 128) (c : Fin 256) : ridx_main_v8 (ix3 p q l) c = ix2 c l :=
  funext fun a => Fin.ext (by match a with | ⟨0, _⟩ => rfl | ⟨1, _⟩ => rfl)

/-- The pair features through weight_two, the contraction split in halves. -/
theorem pair_ix (p q : Fin 1024) (l : Fin 128) :
    val_main_v8 (F := Ideal) x0 x1 x2 x3 (ix3 p q l)
      = (∑ k : Fin 128, max (val_main_v1 (F := Ideal) x0 x1 x2 (ix2 p k)) 0 * (x3 : Spec.Arr 256 128) (ix2 (Spec.lo k) l))
        + ∑ k : Fin 128, max (val_main_v1 (F := Ideal) x0 x1 x2 (ix2 q k)) 0 * (x3 : Spec.Arr 256 128) (ix2 (Spec.hi k) l) := by
  rw [val_main_v8_apply, Spec.sum_halves]
  congr 1
  · refine Finset.sum_congr rfl fun k _ => ?_
    rw [lidx8, ridx8, relu_ix, cat1_lo]
  · refine Finset.sum_congr rfl fun k _ => ?_
    rw [lidx8, ridx8, relu_ix, cat1_hi]

/-- The elementwise product of the two rows. -/
theorem em_ix (p q : Fin 1024) (k : Fin 128) :
    val_main_v9 (F := Ideal) x0 x1 x2 (ix3 p q k)
      = val_main_v1 (F := Ideal) x0 x1 x2 (ix2 p k) * val_main_v1 (F := Ideal) x0 x1 x2 (ix2 q k) := by
  rw [val_main_v9_apply, z1_ix, z2_ix]
  rfl

theorem cat2_lo (p q : Fin 1024) (l : Fin 128) :
    val_main_v10 (F := Ideal) x0 x1 x2 x3 (ix3 p q (Spec.lo l)) = val_main_v8 (F := Ideal) x0 x1 x2 x3 (ix3 p q l) := by
  unfold val_main_v10
  exact concatenate_pair_apply_left (t := S1024x1024x256) (s₁ := S1024x1024x128) (s₂ := S1024x1024x128) 2 _ _ concatenates_S1024x1024x128_S1024x1024x128_S1024x1024x256_d2 (ix3 p q (Spec.lo l)) rfl (ix3 p q l)
    (fun b => by match b with | ⟨0, _⟩ => rfl | ⟨1, _⟩ => rfl | ⟨2, _⟩ => rfl)

theorem cat2_hi (p q : Fin 1024) (k : Fin 128) :
    val_main_v10 (F := Ideal) x0 x1 x2 x3 (ix3 p q (Spec.hi k)) = val_main_v9 (F := Ideal) x0 x1 x2 (ix3 p q k) := by
  unfold val_main_v10
  exact concatenate_pair_apply_right (t := S1024x1024x256) (s₁ := S1024x1024x128) (s₂ := S1024x1024x128) 2 _ _ concatenates_S1024x1024x128_S1024x1024x128_S1024x1024x256_d2 (ix3 p q (Spec.hi k)) rfl rfl (ix3 p q k)
    (fun b hb => by
      match b with
      | ⟨0, _⟩ => rfl
      | ⟨1, _⟩ => rfl
      | ⟨2, _⟩ => exact absurd (Fin.ext rfl) hb)
    (by show k.val + 128 = 128 + k.val; omega)

theorem lidx11 (p q : Fin 1024) (u : Fin 1) (c : Fin 256) : lidx_main_v11 (ix3 p q u) c = ix3 p q c :=
  funext fun a => Fin.ext (by match a with | ⟨0, _⟩ => rfl | ⟨1, _⟩ => rfl | ⟨2, _⟩ => rfl)
theorem ridx11 (p q : Fin 1024) (u : Fin 1) (c : Fin 256) : ridx_main_v11 (ix3 p q u) c = ix2 c u :=
  funext fun a => Fin.ext (by match a with | ⟨0, _⟩ => rfl | ⟨1, _⟩ => rfl)

theorem idx12 (p q : Fin 1024) : idx_main_v12 (ix2 p q) = ix3 p q (0 : Fin 1) :=
  funext fun a => Fin.ext (by
    have hp := p.isLt
    have hq := q.isLt
    match a with
    | ⟨0, _⟩ => show (p.val * 1024 + q.val) / 1024 = p.val; omega
    | ⟨1, _⟩ => show (p.val * 1024 + q.val) / 1 % 1024 = q.val; omega
    | ⟨2, _⟩ => rfl)

/-- The score before the logistic function is the reference score of `z`. -/
theorem score_ix (p q : Fin 1024) :
    val_main_v12 (F := Ideal) x0 x1 x2 x3 x4 (ix2 p q) = Spec.refScoreAt (val_main_v1 (F := Ideal) x0 x1 x2) x3 x4 p q := by
  rw [val_main_v12_apply, idx12, val_main_v11_apply, Spec.sum_halves]
  unfold Spec.refScoreAt
  congr 1
  · refine Finset.sum_congr rfl fun l _ => ?_
    rw [lidx11, ridx11, cat2_lo, pair_ix]
  · refine Finset.sum_congr rfl fun k _ => ?_
    rw [lidx11, ridx11, cat2_hi, em_ix]

/-- The reference's result at (p, q). -/
theorem result_ix (p q : Fin 1024) :
    val_main_v18 (F := Ideal) x0 x1 x2 x3 x4 (ix2 p q)
      = Ideal.logistic (Spec.refScoreAt (Spec.zOf x1 (Spec.xOf x0 x2)) x3 x4 p q) := by
  rw [val_main_v18_apply, val_main_v17_apply, val_main_cst_0_apply, val_main_v16_apply, val_main_v15_apply, val_main_cst_apply,
    val_main_v14_apply, val_main_v13_apply, score_ix, z_eq]
  show Ideal.div (Ideal.ofBits .f32 0x3F800000#32) (Ideal.ofBits .f32 0x3F800000#32 + Ideal.exp (-(Spec.refScoreAt (Spec.zOf x1 (Spec.xOf x0 x2)) x3 x4 p q)))
    = Ideal.div 1 (1 + Ideal.exp (-(Spec.refScoreAt (Spec.zOf x1 (Spec.xOf x0 x2)) x3 x4 p q)))
  rw [Ideal.ofBits_one_f32]

end Cert.ReferenceIdeal.RefValue

end
-- ==== Proof.Finite.lean ====
/-
  The precondition read back. `finite_inputs` is the conjunction, over the five float arguments, of
  `all(|a| < +inf)`. On the extended reals `|x| = max x (-x)` is below `+inf` exactly when `x` is neither infinity,
  that is, when `x` is a real number; so the precondition says every entry of every float argument is real.
-/
import proofs.«139175_j24885040513650_2_alg».proof.Pre_finite_inputs
import proofs.«139175_j24885040513650_2_alg».proof.Proof.Algebra
import Idealize.ShloMosaic.Lib.ReduceAll
import Idealize.ShloMosaic.Lib.ValueIdx

noncomputable section

namespace Cert.Pre_finite_inputs.Decode

open Cert.Pre_finite_inputs Idealize.ShloMosaic Cert.Spec

variable [Cert.Pre_finite_inputs.Facts]

instance : Subsingleton S_.Idx := ⟨fun a b => funext fun d => d.elim0⟩

/-- The f32 word of +inf is the top of the extended reals. -/
theorem top_word : Ideal.ofBits .f32 0x7F800000#32 = ⊤ := by simp [Ideal.ofBits, Ideal.ieee]

/-- `|x| < +inf` says `x` is a real number. -/
theorem isReal_of_abs_lt (x : EReal) (h : Ideal.cmp .olt (max x (-x)) ⊤ = 1#1) : IsReal x := by
  induction x using EReal.rec with
  | bot => simp [Ideal.cmp] at h
  | top => simp [Ideal.cmp] at h
  | coe r => exact isReal_coe r

/-- One `all(|a| < +inf)` that holds says every entry of `a` is real. -/
theorem all_real {s : Shape} {axes : List (Fin s.rank)} (a : FVec Ideal s .f32)
    (hb : S_.BroadcastsInDim s (![] : Fin 0 → Fin s.rank)) (hr : s.ReducesTo axes S_) (init : IVec S_ 1) (hu : 0 < S_.numel)
    (e : Host.reduce IntOp.andi (cmpf .olt (Host.absf a) (broadcastInDim s ![] hb (constant (F := Ideal) S_ .f32 0x7F800000#32))) init hr hu ValueIdx.ix0 = 1#1)
    (i : s.Idx) : IsReal (a i) := by
  have h := Host.reduce_andi_all _ init hr hu ValueIdx.ix0 e i
  have h' : Ideal.cmp .olt (max (a i) (-(a i))) (Ideal.ofBits .f32 0x7F800000#32) = 1#1 := h
  rw [top_word] at h'
  exact isReal_of_abs_lt _ h'

/-- The precondition says every float argument has only real entries. -/
theorem inputs_real (a0 : FVec Ideal S1024x512 .f32) (a1 : FVec Ideal S1024x1024 .f32) (a2 : FVec Ideal S512x128 .f32)
    (a3 : FVec Ideal S256x128 .f32) (a4 : FVec Ideal S256x1 .f32) (a5 a6 : IVec S8192x2 32)
    (h : fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ValueIdx.ix0
  dsimp only [fn, fn_part1] at h0
  obtain ⟨ha, e4⟩ := IntOp.andi_eq_one.1 h0
  obtain ⟨hb, e3⟩ := IntOp.andi_eq_one.1 ha
  obtain ⟨hc, e2⟩ := IntOp.andi_eq_one.1 hb
  obtain ⟨e0, e1⟩ := IntOp.andi_eq_one.1 hc
  exact ⟨all_real a0 _ _ _ _ e0, all_real a1 _ _ _ _ e1, all_real a2 _ _ _ _ e2, all_real a3 _ _ _ _ e3, all_real a4 _ _ _ _ e4⟩

end Cert.Pre_finite_inputs.Decode

end
-- ==== Proof.lean ====
/-
  A link-prediction decoder over a one-layer graph encoder: with `x = inputs · weight` and `z = adj · x`, the score of
  the pair of nodes (i, j) is the logistic function of
      [ relu([z_i ; z_j]) · weight_two ;  z_i ⊙ z_j ] · weight_three.
  The reference materializes the pair tensors; the kernel uses that the 256-channel contractions split into halves,
      relu([z_i ; z_j]) · weight_two = relu(z_i) · W2a + relu(z_j) · W2b,
  and prepares per node `a_i = (relu(z_i) · W2a) · w3a`, `b_j = (relu(z_j) · W2b) · w3a` and `zw_i = z_i ⊙ w3b` in a second
  launch, so that the third adds `zw_i · z_j + a_i + b_j` before the logistic function.

  Splitting a finite sum into two halves holds on the extended reals as it stands; moving `w3a` across the sum of the two
  halves is distributivity, which needs every entry to be a real number. The precondition gives that of the five
  float arguments, and dot products of real entries are real, so `z` is real and the two scores agree (Algebra, Bridge).

  The kernel's side is read off its three launches: each grid point writes back a row block (for `b` a column block) that is
  the restriction of one whole-array function of the arrays the launch found, and the eight blocks tile the array
  (First, Second, Third); the boundary contents compose these functions back to the launch memory (Chain). The reference's
  side is its run read stage by stage at an entry (RefValue). The kernel needed no idealizing rewrite, so `preserves` is
  trivially true.
-/
import proofs.«139175_j24885040513650_2_alg».proof.Defs
import proofs.«139175_j24885040513650_2_alg».proof.Proof.Gen.Kernel
import proofs.«139175_j24885040513650_2_alg».proof.Proof.Gen.Kernel.Skeleton
import proofs.«139175_j24885040513650_2_alg».proof.Proof.Gen.Kernel.Launch
import proofs.«139175_j24885040513650_2_alg».proof.Proof.Gen.Kernel.Points
import proofs.«139175_j24885040513650_2_alg».proof.Proof.Gen.Kernel.Frame
import proofs.«139175_j24885040513650_2_alg».proof.Proof.Gen.KernelIdeal
import proofs.«139175_j24885040513650_2_alg».proof.Proof.Gen.KernelIdeal.Skeleton
import proofs.«139175_j24885040513650_2_alg».proof.Proof.Gen.KernelIdeal.Launch
import proofs.«139175_j24885040513650_2_alg».proof.Proof.Gen.KernelIdeal.Points
import proofs.«139175_j24885040513650_2_alg».proof.Proof.Gen.KernelIdeal.Frame
import proofs.«139175_j24885040513650_2_alg».proof.Proof.Gen.ReferenceIdeal
import proofs.«139175_j24885040513650_2_alg».proof.Proof.Gen.Pre_finite_inputs
import proofs.«139175_j24885040513650_2_alg».proof.Proof.Gen.ReferenceIdeal.Run
import proofs.«139175_j24885040513650_2_alg».proof.Proof.Gen.ReferenceIdeal.Read
import proofs.«139175_j24885040513650_2_alg».proof.Proof.Chain
import proofs.«139175_j24885040513650_2_alg».proof.Proof.RefValue
import proofs.«139175_j24885040513650_2_alg».proof.Proof.Finite
import Idealize.ShloMosaic.Adequacy
import Idealize.ShloMosaic.Init

noncomputable section

namespace Cert.Proof

open Idealize.ShloMosaic Idealize.SL.Sem Idealize.ShloMosaic.ValueIdx

/-- The word-level kernel runs and leaves its arguments unchanged. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the extended reals, from memories agreeing on the arguments, both programs end with `Spec.kernelOut` of the
    arguments: the kernel by its three launches composed, the reference because at each entry its score is the kernel's
    once every argument entry is real. -/
theorem algebraic : Cert.algebraic_KernelIdeal_ReferenceIdeal := by
  intro m ρ m' ρ' hpre hagree
  refine ⟨fun c => Spec.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, -, -⟩ := hagree c
  obtain ⟨r0, r1, r2, r3, r4⟩ := Cert.Pre_finite_inputs.Decode.inputs_real _ _ _ _ _ _ _ (hpre c)
  rw [Cert.ReferenceIdeal.Read.val_main_v18_eq, g0, g1, g2, g3, g4]
  funext i
  obtain ⟨p, q, rfl⟩ : ∃ (p : Fin 1024) (q : Fin 1024), i = ix2 p q := ⟨i 0, i 1, eq_ix2 i⟩
  rw [Cert.ReferenceIdeal.RefValue.result_ix]
  exact (Spec.kernelOut_ix _ _ _ _ _ r0 r1 r2 r3 r4 p q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
